-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : FVec F S8x2048x512 .f32) (main_arg2 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S8x2048x512 .f32 := Host.absf main_arg2
  let main_cst_2 : FVec F S_ .f32 := constant S_ .f32 0x7F800000#32
  let main_v10 : FVec F S8x2048x512 .f32 := broadcastInDim S8x2048x512 ![] bcast_S_S8x2048x512 main_cst_2
  let main_v11 : IVec S8x2048x512 1 := cmpf .olt main_v9 main_v10
  let main_c_3 : IVec S_ 1 := constantI S_ 1 1#1
  let main_v12 : IVec S_ 1 := (fun x v => Host.reduce IntOp.andi x v reducesTo_S8x2048x512_S_d0_1_2 h_S_) main_v11 main_c_3
  let main_v13 : IVec S_ 1 := andi main_v8 main_v12
  main_v13
-- ==== Kernel.lean ====
abbrev S8x2048x512 : Shape := ⟨3, ![8, 2048, 512]⟩
abbrev S1x1024x512 : Shape := ⟨3, ![1, 1024, 512]⟩
abbrev S1x2048x512 : Shape := ⟨3, ![1, 2048, 512]⟩
abbrev S1x1024x1 : Shape := ⟨3, ![1, 1024, 1]⟩
abbrev S1x512x512 : Shape := ⟨3, ![1, 512, 512]⟩
abbrev S1x1024 : Shape := ⟨2, ![1, 1024]⟩

abbrev nBuf : Space → Nat
  | .hbm => 4
  | .vmem => 11
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .local _ .vmem, ⟨0, _⟩ => ⟨S1x1024x512, .f32⟩
  | .local _ .vmem, ⟨1, _⟩ => ⟨S1x1024x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c4_i32 : BitVec 32 := 4#32
  let v14 : BitVec 32 := Scalar.addi c0_i32 c4_i32
  let c1_i32 : BitVec 32 := 1#32
  ⟨c0_i32, v14, c1_i32⟩
def k0_mult1 (k0_t1 : Fin k0_t1_loop.trips) : BitVec 32 :=
  let c0_i32_24 : BitVec 32 := 0#32
  let c0_i32 : BitVec 32 := 0#32
  let c1_i32 : BitVec 32 := 1#32
  let arg9 : BitVec 32 := Scf.iv c0_i32 c1_i32 k0_t1
  let c1_i32_23 : BitVec 32 := 1#32
  let v20 : BitVec 32 := Scalar.muli arg9 c1_i32_23
  let v21 : BitVec 32 := Scalar.addi c0_i32_24 v20
  let c512_i32 : BitVec 32 := 512#32
  let v22 : BitVec 32 := Scalar.muli v21 c512_i32
  v22
def k0_off1 (k0_t1 : Fin k0_t1_loop.trips) : Fin 3 → Nat :=
  let c0_25 : Index := 0#32
  let c0_i32_24 : BitVec 32 := 0#32
  let c0_i32 : BitVec 32 := 0#32
  let c1_i32 : BitVec 32 := 1#32
  let arg9 : BitVec 32 := Scf.iv c0_i32 c1_i32 k0_t1
  let c1_i32_23 : BitVec 32 := 1#32
  let v20 : BitVec 32 := Scalar.muli arg9 c1_i32_23
  let v21 : BitVec 32 := Scalar.addi c0_i32_24 v20
  let c512_i32 : BitVec 32 := 512#32
  let v22 : BitVec 32 := Scalar.muli v21 c512_i32
  let v23 : BitVec 32 := v22
  let v24 : Index := Scalar.indexCast v23
  let c0_26 : Index := 0#32
  ![0, v24.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1x1024x512 : S1x1024x512.ShapeCasts S1x1024x512
  bitsLt_bf16_f32 : FTy.bits .bf16 < FTy.bits .f32
  h_S1x512x512 : 0 < S1x512x512.numel
  reduces_S1x1024x512_S1x1024 : S1x1024x512.Reduces [2] S1x1024
  shapeCasts_S1x1024_S1x1024x1 : S1x1024.ShapeCasts S1x1024x1
  broadcasts_S1x1024x1_S1x1024x512 : S1x1024x1.Broadcasts S1x1024x512
  dot_S1x1024x512_S1x512x512_S1x1024x512_2_2_1_1_0_0_wf : DotDims.WF S1x1024x512 S1x512x512 S1x1024x512 [2] [2] [1] [1] [0] [0]
  dot_S1x1024x512_S1x512x512_S1x1024x512_2_1_1_2_0_0_wf : DotDims.WF S1x1024x512 S1x512x512 S1x1024x512 [2] [1] [1] [2] [0] [0]
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x512.size a ≤ S1x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x2048x512.size a
  hwx0_0 : ∀ i : grid0.Coords, EltTy.bits .f32 = 32 ∨ (Rect.block (s := S8x2048x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x512.size a
  hwx0_2 : ∀ i : grid0.Coords, EltTy.bits .f32 = 32 ∨ (Rect.block (s := S8x2048x512) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x2048x512.size a
  hwx0_3 : ∀ i : grid0.Coords, EltTy.bits .f32 = 32 ∨ (Rect.block (s := S8x2048x512) S1x1024x512.size (cc0_transform_3 i) (hinb0_3 i)).WholeWords (EltTy.packing .f32)

variable [Facts₀]

def dot_S1x1024x512_S1x512x512_S1x1024x512_2_2_1_1_0_0 : DotDims S1x1024x512 S1x512x512 S1x1024x512 where
  lhsContracting := [2]
  rhsContracting := [2]
  lhsNonContracting := [1]
  rhsNonContracting := [1]
  lhsBatch := [0]
  rhsBatch := [0]
  wf := dot_S1x1024x512_S1x512x512_S1x1024x512_2_2_1_1_0_0_wf
def dot_S1x1024x512_S1x512x512_S1x1024x512_2_1_1_2_0_0 : DotDims S1x1024x512 S1x512x512 S1x1024x512 where
  lhsContracting := [2]
  rhsContracting := [1]
  lhsNonContracting := [1]
  rhsNonContracting := [2]
  lhsBatch := [0]
  rhsBatch := [0]
  wf := dot_S1x1024x512_S1x512x512_S1x1024x512_2_1_1_2_0_0_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.FlashState.lean ====
/-
  The kernel body as a pure recurrence on whole blocks.

  At one grid point the body keeps three blocks across its four trips over the keys: the running row maxima `m`
  (1024 rows, one column), the running normalisers `l` (the same shape) and the running weighted sums `acc` (1024 rows,
  512 features). `start` is what it stores before the first trip (`-∞`, zeros, zeros); `next` is what one trip stores,
  from the query block, the trip's 512 key rows and 512 value rows and the three blocks it finds; `result` is the block
  it finally writes: `acc` divided row by row by `l`. Each is the generated payload of the corresponding store.
-/
import proofs.«155674_j33801392620168_2_alg».proof.Proof.Gen.KernelIdeal.Skeleton

noncomputable section

namespace Cert.Attn.Flash

open Idealize.ShloMosaic Cert.KernelIdeal Cert.KernelIdeal.Gen

variable {F : FTy → Type} [FloatOps F]

/-- The three blocks carried across the trips: maxima, normalisers, weighted sums. -/
abbrev St (F : FTy → Type) : Type :=
  FVec F S1x1024x1 .f32 × FVec F S1x1024x1 .f32 × FVec F S1x1024x512 .f32

/-- What the body stores before the first trip. -/
def start : St F := (k0_pay1, k0_pay2, k0_pay3)

/-- What one trip stores, from the query block `x0`, the trip's key rows `kc` and value rows `vc`, and the blocks found. -/
def next (x0 : Vec F S1x1024x512 .f32) (kc vc : Vec F S1x512x512 .f32) (st : St F) : St F :=
  (k0_pay6 (k0_pay9 (k0_pay4 x0) kc st.1),
   k0_pay12 (k0_pay4 x0) kc st.1 st.2.1,
   k0_pay5 (k0_pay13 (k0_pay4 x0) kc vc st.1 st.2.2))

/-- The block the body finally writes. -/
def result (st : St F) : FVec F S1x1024x512 .f32 := k0_pay7 st.2.2 st.2.1

end Cert.Attn.Flash

end
-- ==== Proof.FlashRun.lean ====
/-
  The kernel body's run, read as the pure recurrence.

  The body's stores all go through whole-buffer rectangles, so what a buffer holds after a store is that store's
  payload, whatever it held before. One trip of the loop over the keys therefore leaves in the three carried buffers
  exactly `next` of what it found there, of the query block and of the trip's key and value rows (`trip_pieces`,
  `reads_after`); by induction over the trips the buffers hold `stateAfter j` after `j` trips; and the block the body
  finally writes is `result` of the state after the last trip (`body_block`).
-/
import proofs.«155674_j33801392620168_2_alg».proof.Proof.Gen.KernelIdeal.Frame
import proofs.«155674_j33801392620168_2_alg».proof.Proof.FlashState
import Idealize.ShloMosaic.Lib.Pipeline.Value

set_option maxRecDepth 16384

noncomputable section

namespace Cert.Attn.Flash

open Idealize.ShloMosaic Idealize.ShloMosaic.TcCoe Idealize.SL.Sem Cert.KernelIdeal Cert.KernelIdeal.Gen

variable {F : FTy → Type} [FloatOps F]

/-- The zero offsets of a rank-3 whole-buffer rectangle. -/
theorem zero3 : (![0, 0, 0] : Fin 3 → ℕ) = fun _ => 0 := by
  funext a; fin_cases a <;> rfl

/-- After a store through the whole-buffer rectangle, last, the buffer reads as that store's payload. -/
theorem read_last_whole {sig : RefSig} {κ : Kind} {sp : Space} {S : Shape} {e : EltTy} (v : View sig κ sp S e)
    (f : v.ty.Contents (Elt F)) {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load through the whole-buffer rectangle reads the buffer. -/
theorem readAt_whole {sig : RefSig} {κ : Kind} {sp : Space} {S : Shape} {e : EltTy} (v : View sig κ sp S e)
    (f : v.ty.Contents (Elt F)) {off : Fin S.rank → ℕ} (hz : off = fun _ => 0) (inb : ∀ a, off a + S.size a ≤ S.size a) :
    View.readAt (Elt F) v (Rect.unit off S.size inb).toLoadRect f = v.read (Elt F) f := by
  rw [View.readAt_eq_ld, View.ld_unit_zero hz]

/-- The 512 rows a trip reads of a 2048-row block: rows `512 k` to `512 k + 511`. -/
def rowsOf (x : Vec F S1x2048x512 .f32) (k : Fin k0_t1_loop.trips) : Vec F S1x512x512 .f32 :=
  View.ld x (Rect.unit (s := S1x2048x512) (k0_off1 k) S1x512x512.size (k0_off1_inb k))

/-- The carried blocks after `j` trips. -/
def stateAfter (x0 : Vec F S1x1024x512 .f32) (x1 x2 : Vec F S1x2048x512 .f32) : ℕ → St F
  | 0 => start
  | j + 1 => if h : j < k0_t1_loop.trips then next x0 (rowsOf x1 ⟨j, h⟩) (rowsOf x2 ⟨j, h⟩) (stateAfter x0 x1 x2 j)
      else stateAfter x0 x1 x2 j

section Run

variable (c : Dev nD) (i : grid0.Coords) (arg2 : Memref sig .tc .vmem S1x1024x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x512 .f32) (harg8 : arg8.IsWhole)

/-- One trip's stores, read off its run: one whole-buffer store into each carried buffer, of the three components of
    `next` at the blocks the trip finds and the rows it loads. -/
theorem trip_pieces (v12 : Vec F S1x1024x512 .f32) (X3 : BufTy.Contents (Elt F) arg3.view.ty) (X4 : BufTy.Contents (Elt F) arg4.view.ty)
    (k : Fin k0_t1_loop.trips) (f6 : BufTy.Contents (Elt F) arg6.view.ty) (f7 : BufTy.Contents (Elt F) arg7.view.ty)
    (f8 : BufTy.Contents (Elt F) arg8.view.ty) :
    tripL_k0_t1 (F := F) Variants.none c none i arg2 harg2 arg3 harg3 arg4 harg4 arg5 harg5 arg6 harg6 arg7 harg7 arg8 harg8 v12 X3 X4 k f6 f7 f8
      = ([⟨Rect.unit ![0, 0, 0] S1x1024x1.size inb_S1x1024x1_S1x1024x1_0_0_0,
            (next v12
              (View.readAt (Elt F) arg3.view (Rect.unit (s := S1x2048x512) (k0_off1 k) S1x512x512.size (k0_off1_inb k)).toLoadRect X3)
              (View.readAt (Elt F) arg4.view (Rect.unit (s := S1x2048x512) (k0_off1 k) S1x512x512.size (k0_off1_inb k)).toLoadRect X4)
              (View.readAt (Elt F) arg6.view (Rect.unit ![0, 0, 0] S1x1024x1.size inb_S1x1024x1_S1x1024x1_0_0_0).toLoadRect f6,
               View.readAt (Elt F) arg7.view (Rect.unit ![0, 0, 0] S1x1024x1.size inb_S1x1024x1_S1x1024x1_0_0_0).toLoadRect f7,
               View.readAt (Elt F) arg8.view (Rect.unit ![0, 0, 0] S1x1024x512.size inb_S1x1024x512_S1x1024x512_0_0_0).toLoadRect f8)).1⟩],
         [⟨Rect.unit ![0, 0, 0] S1x1024x1.size inb_S1x1024x1_S1x1024x1_0_0_0,
            (next v12
              (View.readAt (Elt F) arg3.view (Rect.unit (s := S1x2048x512) (k0_off1 k) S1x512x512.size (k0_off1_inb k)).toLoadRect X3)
              (View.readAt (Elt F) arg4.view (Rect.unit (s := S1x2048x512) (k0_off1 k) S1x512x512.size (k0_off1_inb k)).toLoadRect X4)
              (View.readAt (Elt F) arg6.view (Rect.unit ![0, 0, 0] S1x1024x1.size inb_S1x1024x1_S1x1024x1_0_0_0).toLoadRect f6,
               View.readAt (Elt F) arg7.view (Rect.unit ![0, 0, 0] S1x1024x1.size inb_S1x1024x1_S1x1024x1_0_0_0).toLoadRect f7,
               View.readAt (Elt F) arg8.view (Rect.unit ![0, 0, 0] S1x1024x512.size inb_S1x1024x512_S1x1024x512_0_0_0).toLoadRect f8)).2.1⟩],
         [⟨Rect.unit ![0, 0, 0] S1x1024x512.size inb_S1x1024x512_S1x1024x512_0_0_0,
            (next v12
              (View.readAt (Elt F) arg3.view (Rect.unit (s := S1x2048x512) (k0_off1 k) S1x512x512.size (k0_off1_inb k)).toLoadRect X3)
              (View.readAt (Elt F) arg4.view (Rect.unit (s := S1x2048x512) (k0_off1 k) S1x512x512.size (k0_off1_inb k)).toLoadRect X4)
              (View.readAt (Elt F) arg6.view (Rect.unit ![0, 0, 0] S1x1024x1.size inb_S1x1024x1_S1x1024x1_0_0_0).toLoadRect f6,
               View.readAt (Elt F) arg7.view (Rect.unit ![0, 0, 0] S1x1024x1.size inb_S1x1024x1_S1x1024x1_0_0_0).toLoadRect f7,
               View.readAt (Elt F) arg8.view (Rect.unit ![0, 0, 0] S1x1024x512.size inb_S1x1024x512_S1x1024x512_0_0_0).toLoadRect f8)).2.2⟩]) := by
  unfold tripL_k0_t1 trip_k0_t1
  rfl

/-- One trip, on the buffers read whole: whatever the three carried buffers hold, after the trip they read as `next`
    of what they read before, of the query block and of the trip's rows of the key and value blocks. -/
theorem reads_after_trip (x0 : Vec F S1x1024x512 .f32) (x1 x2 : Vec F S1x2048x512 .f32) (k : Fin k0_t1_loop.trips)
    (f6 : BufTy.Contents (Elt F) arg6.view.ty) (f7 : BufTy.Contents (Elt F) arg7.view.ty) (f8 : BufTy.Contents (Elt F) arg8.view.ty) :
    ((arg6.view.read (Elt F) (arg6.view.writes (Elt F) f6
        (tripL_k0_t1 (F := F) Variants.none c none i arg2 harg2 arg3 harg3 arg4 harg4 arg5 harg5 arg6 harg6 arg7 harg7 arg8 harg8 x0 (harg3.unread x1) (harg4.unread x2) k f6 f7 f8).1),
      arg7.view.read (Elt F) (arg7.view.writes (Elt F) f7
        (tripL_k0_t1 (F := F) Variants.none c none i arg2 harg2 arg3 harg3 arg4 harg4 arg5 harg5 arg6 harg6 arg7 harg7 arg8 harg8 x0 (harg3.unread x1) (harg4.unread x2) k f6 f7 f8).2.1),
      arg8.view.read (Elt F) (arg8.view.writes (Elt F) f8
        (tripL_k0_t1 (F := F) Variants.none c none i arg2 harg2 arg3 harg3 arg4 harg4 arg5 harg5 arg6 harg6 arg7 harg7 arg8 harg8 x0 (harg3.unread x1) (harg4.unread x2) k f6 f7 f8).2.2)) : St F)
      = next x0 (rowsOf x1 k) (rowsOf x2 k) (arg6.view.read (Elt F) f6, arg7.view.read (Elt F) f7, arg8.view.read (Elt F) f8) := by
  rw [trip_pieces]
  dsimp only
  rw [read_last_whole _ _ zero3, read_last_whole _ _ zero3, read_last_whole _ _ zero3,
    readAt_whole _ _ zero3, readAt_whole _ _ zero3, readAt_whole _ _ zero3,
    View.readAt_eq_ld, View.readAt_eq_ld, harg3.read_unread, harg4.read_unread]
  rfl

/-- After `j` trips from buffers that read as `start`, the three carried buffers read as `stateAfter j`. -/
theorem reads_after (x0 : Vec F S1x1024x512 .f32) (x1 x2 : Vec F S1x2048x512 .f32)
    (G6 : BufTy.Contents (Elt F) arg6.view.ty) (G7 : BufTy.Contents (Elt F) arg7.view.ty) (G8 : BufTy.Contents (Elt F) arg8.view.ty)
    (h0 : ((arg6.view.read (Elt F) G6, arg7.view.read (Elt F) G7, arg8.view.read (Elt F) G8) : St F) = start) :
    ∀ j, j ≤ k0_t1_loop.trips →
      ((arg6.view.read (Elt F) (arg6.view.writes (Elt F) G6
          (pb_k0_t1 (F := F) Variants.none c none i arg2 harg2 arg3 harg3 arg4 harg4 arg5 harg5 arg6 harg6 arg7 harg7 arg8 harg8 x0 (harg3.unread x1) (harg4.unread x2) G6 G7 G8 j).1),
        arg7.view.read (Elt F) (arg7.view.writes (Elt F) G7
          (pb_k0_t1 (F := F) Variants.none c none i arg2 harg2 arg3 harg3 arg4 harg4 arg5 harg5 arg6 harg6 arg7 harg7 arg8 harg8 x0 (harg3.unread x1) (harg4.unread x2) G6 G7 G8 j).2.1),
        arg8.view.read (Elt F) (arg8.view.writes (Elt F) G8
          (pb_k0_t1 (F := F) Variants.none c none i arg2 harg2 arg3 harg3 arg4 harg4 arg5 harg5 arg6 harg6 arg7 harg7 arg8 harg8 x0 (harg3.unread x1) (harg4.unread x2) G6 G7 G8 j).2.2)) : St F)
        = stateAfter x0 x1 x2 j := by
  intro j
  induction j with
  | zero =>
    intro _
    rw [pb_k0_t1]
    exact h0
  | succ j ih =>
    intro hj
    have hlt : j < k0_t1_loop.trips := hj
    have hs := pb_k0_t1_succ (F := F) Variants.none c none i arg2 harg2 arg3 harg3 arg4 harg4 arg5 harg5 arg6 harg6 arg7 harg7 arg8 harg8 x0 (harg3.unread x1) (harg4.unread x2) G6 G7 G8 ⟨j, hlt⟩
    rw [show j + 1 = (⟨j, hlt⟩ : Fin k0_t1_loop.trips).val + 1 from rfl, hs]
    dsimp only
    rw [View.writes_append, View.writes_append, View.writes_append, reads_after_trip, ih (le_of_lt hlt)]
    show _ = stateAfter x0 x1 x2 (j + 1)
    rw [stateAfter, dif_pos hlt]

/-- The loop makes four trips. -/
theorem trips_eq : k0_t1_loop.trips = 4 := by decide

/-- Before the first trip the three carried buffers read as `start`: each was just stored whole. -/
theorem reads_start :
    ((arg6.view.read (Elt F) (arg6.view.writes (Elt F) arg6.view.junk (kernelRun0_A.sl.HS0_1 (F := F))),
      arg7.view.read (Elt F) (arg7.view.writes (Elt F) arg7.view.junk (kernelRun0_A.sl.HS1_1 (F := F))),
      arg8.view.read (Elt F) (arg8.view.writes (Elt F) arg8.view.junk (kernelRun0_A.sl.HS2_1 (F := F)))) : St F)
      = start := by
  unfold kernelRun0_A.sl.HS0_1 kernelRun0_A.sl.HS1_1 kernelRun0_A.sl.HS2_1
  rw [read_last_whole _ _ zero3, read_last_whole _ _ zero3, read_last_whole _ _ zero3]
  rfl

/-- The block the body writes at a grid point, from the query block `x0` and the key and value blocks `x1`, `x2` it is
    given: `result` of the carried blocks after the last trip. -/
theorem body_block (x0 : Vec F S1x1024x512 .f32) (x1 x2 : Vec F S1x2048x512 .f32) :
    out0_A_3 (F := F) c i arg2 harg2 arg3 harg3 arg4 harg4 arg5 harg5 arg6 harg6 arg7 harg7 arg8 harg8 x0 x1 x2 = result (stateAfter x0 x1 x2 k0_t1_loop.trips) := by
  have hx0 : View.readAt (Elt F) arg2.view (Rect.unit ![0, 0, 0] S1x1024x512.size inb_S1x1024x512_S1x1024x512_0_0_0).toLoadRect (harg2.unread x0) = x0 := by
    rw [readAt_whole _ _ zero3, harg2.read_unread]
  have hst := reads_after (F := F) c i arg2 harg2 arg3 harg3 arg4 harg4 arg5 harg5 arg6 harg6 arg7 harg7 arg8 harg8 x0 x1 x2 _ _ _ (reads_start arg6 arg7 arg8) k0_t1_loop.trips le_rfl
  unfold out0_A_3 kernelRun0_A
  dsimp only
  rw [read_last_whole _ _ zero3]
  unfold kernelRun0_A.sl.v15 kernelRun0_A.sl.v16
  rw [hx0, readAt_whole _ _ zero3, readAt_whole _ _ zero3, View.writes_append, View.writes_append]
  show k0_pay7 _ _ = k0_pay7 (stateAfter x0 x1 x2 k0_t1_loop.trips).2.2 (stateAfter x0 x1 x2 k0_t1_loop.trips).2.1
  rw [← hst]

end Run

end Cert.Attn.Flash

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.SoftmaxRow.lean ====
/-
  One row of softmax attention on the extended reals, two ways.

  Given a row of scores `s k` and a row of values `v k` (k over the keys), softmax attention returns the mean of
  `v` under the weights `exp (s k - M) / ∑ k', exp (s k' - M)`, `M` the largest score (`softmaxRow`).
  The streaming form visits the keys chunk by chunk and carries three numbers: the running maximum `m`, the running
  normaliser `l` and the running weighted sum `acc`, the last two always expressed relative to the current `m`: on
  meeting a chunk it raises `m` to `m'`, rescales what it carries by `exp (m - m')`, and adds the chunk's terms
  `exp (s k - m')` (`stepC`). It starts from `m = -∞`, `l = acc = 0` and returns `acc / l`.

  On REAL scores and values the two agree (`online_eq_softmax`): after any number of chunks `l` and `acc` are the
  sums of `exp (s k - m)` and `exp (s k - m) * v k` over the keys seen, because `exp (m - m') * exp (s - m) =
  exp (s - m')`; the first chunk is the same law with both sides zero (`exp (-∞) = 0`). And a ratio of such sums does
  not depend on the real it is shifted by, so `acc / l` is the softmax mean whatever the maxima are — only that
  they are reals is used. Reals are needed: distributing the rescaling over a sum and cancelling the shift both fail
  at the infinities.
-/
import Idealize.ShloMosaic.PureOps.Ideal
import Mathlib.Algebra.BigOperators.Fin
import Mathlib.Data.Finset.Fold
import Mathlib.Tactic.Ring
import Mathlib.Tactic.Linarith
import Mathlib.Tactic.FieldSimp
import proofs.«155674_j33801392620168_2_alg».proof.Proof.LibRealOps

noncomputable section

namespace Cert.Attn.Row

open Idealize.ShloMosaic

/-- The softmax-weighted mean of the values `v` under the scores `s`: each weight is `exp (s k - M)` over the sum of
    all of them, `M` the fold of `max` over the scores from `-∞`. -/
def softmaxRow {n : ℕ} (s v : Fin n → EReal) : EReal :=
  ∑ k, Ideal.div (Ideal.exp (s k - Finset.univ.fold max ⊥ s))
        (∑ k', Ideal.exp (s k' - Finset.univ.fold max ⊥ s)) * v k

/-- One chunk of the streaming form, on the carried triple `(m, l, acc)`: the new maximum, and `l`, `acc` rescaled
    to it plus the chunk's terms. -/
def stepC {C : ℕ} (sj vj : Fin C → EReal) (st : EReal × EReal × EReal) : EReal × EReal × EReal :=
  (max st.1 (Finset.univ.fold max ⊥ sj),
   Ideal.exp (st.1 - max st.1 (Finset.univ.fold max ⊥ sj)) * st.2.1
     + ∑ k, Ideal.exp (sj k - max st.1 (Finset.univ.fold max ⊥ sj)),
   Ideal.exp (st.1 - max st.1 (Finset.univ.fold max ⊥ sj)) * st.2.2
     + ∑ k, Ideal.exp (sj k - max st.1 (Finset.univ.fold max ⊥ sj)) * vj k)

/-- Key `k` of chunk `j`, of four chunks of 512 keys. -/
def chunk (j : Fin 4) (k : Fin 512) : Fin 2048 := ⟨512 * j.val + k.val, by omega⟩

/-- The streaming step on chunk `j` of a row of 2048 keys. -/
def step (s v : Fin 2048 → EReal) (j : Fin 4) (st : EReal × EReal × EReal) : EReal × EReal × EReal :=
  stepC (fun k => s (chunk j k)) (fun k => v (chunk j k)) st

/-- The carried triple after all four chunks, from `(-∞, 0, 0)`. -/
def streamed (s v : Fin 2048 → EReal) : EReal × EReal × EReal :=
  step s v 3 (step s v 2 (step s v 1 (step s v 0 (⊥, 0, 0))))

/-- A fold of `max` from `-∞` over a nonempty finite family of reals is a real. -/
theorem fold_max_coe {n : ℕ} (hn : 0 < n) (a : Fin n → ℝ) :
    ∃ φ : ℝ, Finset.univ.fold max ⊥ (fun k => (a k : EReal)) = (φ : EReal) := by
  have hb : (⊥ : EReal) < Finset.univ.fold max ⊥ (fun k => (a k : EReal)) :=
    (Finset.lt_fold_max _).mpr (Or.inr ⟨⟨0, hn⟩, Finset.mem_univ _, EReal.bot_lt_coe _⟩)
  have ht : Finset.univ.fold max ⊥ (fun k => (a k : EReal)) < ⊤ :=
    (Finset.fold_max_lt _).mpr ⟨bot_lt_top, fun k _ => EReal.coe_lt_top _⟩
  exact ⟨_, (EReal.coe_toReal ht.ne hb.ne').symm⟩

/-- A chunk of real scores and values met with a real maximum `μ` and real sums `L`, `A`: the new maximum is the
    real `max μ φ`, and the new sums are the real formulas `exp (μ - max μ φ) * L + ∑ exp (a k - max μ φ)`. -/
theorem stepC_coe {C : ℕ} (a b : Fin C → ℝ) (μ φ L A : ℝ)
    (hφ : Finset.univ.fold max ⊥ (fun k => (a k : EReal)) = (φ : EReal)) :
    stepC (fun k => (a k : EReal)) (fun k => (b k : EReal)) ((μ : EReal), (L : EReal), (A : EReal)) =
      (((max μ φ : ℝ) : EReal),
       ((Real.exp (μ - max μ φ) * L + ∑ k, Real.exp (a k - max μ φ) : ℝ) : EReal),
       ((Real.exp (μ - max μ φ) * A + ∑ k, Real.exp (a k - max μ φ) * b k : ℝ) : EReal)) := by
  unfold stepC
  simp only [hφ, ← ProofLib.RealOps.coe_max, ← EReal.coe_sub, Ideal.exp_coe, ← EReal.coe_mul,
    ← ProofLib.RealOps.coe_sum, ← EReal.coe_add]

/-- The first chunk, met with `(-∞, 0, 0)`: `exp (-∞) = 0` kills the carried part, and the sums are the chunk's own,
    relative to its maximum `φ`. -/
theorem stepC_bot {C : ℕ} (a b : Fin C → ℝ) (φ : ℝ)
    (hφ : Finset.univ.fold max ⊥ (fun k => (a k : EReal)) = (φ : EReal)) :
    stepC (fun k => (a k : EReal)) (fun k => (b k : EReal)) (⊥, 0, 0) =
      ((φ : EReal), ((∑ k, Real.exp (a k - φ) : ℝ) : EReal),
       ((∑ k, Real.exp (a k - φ) * b k : ℝ) : EReal)) := by
  unfold stepC
  simp only [hφ, max_bot_left, EReal.bot_sub, Ideal.exp_bot, zero_mul, zero_add, ← EReal.coe_sub, Ideal.exp_coe,
    ← EReal.coe_mul, ← ProofLib.RealOps.coe_sum]

/-- The keys of the first `j` chunks. -/
def seen (j : ℕ) : Finset (Fin 2048) := Finset.univ.filter (fun i => i.val < 512 * j)

/-- Within a chunk distinct positions are distinct keys. -/
theorem chunk_injective (j : Fin 4) : Function.Injective (chunk j) := by
  intro x y h
  have h' : 512 * j.val + x.val = 512 * j.val + y.val := congrArg Fin.val h
  exact Fin.ext (by omega)

/-- The keys of the first `j + 1` chunks are those of the first `j` together with chunk `j`. -/
theorem seen_succ (j : Fin 4) : seen (j.val + 1) = seen j.val ∪ Finset.univ.image (chunk j) := by
  ext i
  simp only [seen, Finset.mem_filter, Finset.mem_univ, true_and, Finset.mem_union, Finset.mem_image]
  constructor
  · intro h
    by_cases h' : i.val < 512 * j.val
    · exact Or.inl h'
    · exact Or.inr ⟨⟨i.val - 512 * j.val, by omega⟩, Fin.ext (by simp only [chunk]; omega)⟩
  · rintro (h | ⟨k, hk⟩)
    · omega
    · have hk' : 512 * j.val + k.val = i.val := congrArg Fin.val hk
      have := k.isLt
      omega

/-- Chunk `j` is new to the first `j` chunks. -/
theorem seen_disjoint (j : Fin 4) : Disjoint (seen j.val) (Finset.univ.image (chunk j)) := by
  rw [Finset.disjoint_left]
  intro i hi hi'
  simp only [seen, Finset.mem_filter, Finset.mem_univ, true_and] at hi
  obtain ⟨k, -, hk⟩ := Finset.mem_image.mp hi'
  have hk' : 512 * j.val + k.val = i.val := congrArg Fin.val hk
  omega

/-- A sum over the first `j + 1` chunks splits into the first `j` and chunk `j`. -/
theorem sum_seen_succ (f : Fin 2048 → ℝ) (j : Fin 4) :
    ∑ i ∈ seen (j.val + 1), f i = ∑ i ∈ seen j.val, f i + ∑ k, f (chunk j k) := by
  rw [seen_succ, Finset.sum_union (seen_disjoint j),
    Finset.sum_image (fun x _ y _ h => chunk_injective j h)]

/-- No key has been seen before the first chunk. -/
theorem seen_zero : seen 0 = ∅ := by
  ext i; simp [seen]

/-- After four chunks every key has been seen. -/
theorem seen_four : seen 4 = Finset.univ := by
  ext i
  have := i.isLt
  simp only [seen, Finset.mem_filter, Finset.mem_univ, true_and, iff_true]
  omega

/-- Changing the shift of a sum of exponentials from `μ` to `μ'` multiplies it by `exp (μ - μ')`. -/
theorem rescale_sum {ι : Type*} (S : Finset ι) (x y : ι → ℝ) (μ μ' : ℝ) :
    Real.exp (μ - μ') * ∑ i ∈ S, Real.exp (x i - μ) * y i = ∑ i ∈ S, Real.exp (x i - μ') * y i := by
  rw [Finset.mul_sum]
  refine Finset.sum_congr rfl fun i _ => ?_
  rw [← mul_assoc, ← Real.exp_add]
  congr 2
  ring

/-- The same without the second factor. -/
theorem rescale_sum_one {ι : Type*} (S : Finset ι) (x : ι → ℝ) (μ μ' : ℝ) :
    Real.exp (μ - μ') * ∑ i ∈ S, Real.exp (x i - μ) = ∑ i ∈ S, Real.exp (x i - μ') := by
  have h := rescale_sum S x (fun _ => 1) μ μ'
  simpa using h

/-- What the carried triple stands for after `j` chunks of the real rows `x`, `y`: for some real `μ`, the
    normaliser and the weighted sum are the sums of `exp (x i - μ)` and `exp (x i - μ) * y i` over the keys seen, and
    the carried maximum is `μ` — or still `-∞`, before the first chunk. -/
def Carried (x y : Fin 2048 → ℝ) (j : ℕ) (st : EReal × EReal × EReal) : Prop :=
  ∃ μ : ℝ, st.2.1 = ((∑ i ∈ seen j, Real.exp (x i - μ) : ℝ) : EReal) ∧
    st.2.2 = ((∑ i ∈ seen j, Real.exp (x i - μ) * y i : ℝ) : EReal) ∧
    (st.1 = (μ : EReal) ∨ (st.1 = ⊥ ∧ j = 0))

/-- The start `(-∞, 0, 0)` stands for no keys. -/
theorem carried_start (x y : Fin 2048 → ℝ) : Carried x y 0 (⊥, 0, 0) := by
  refine ⟨0, ?_, ?_, Or.inr ⟨rfl, rfl⟩⟩ <;> simp [seen_zero]

/-- A streaming step keeps the meaning of the carried triple: the law `exp (μ - μ') * exp (x - μ) = exp (x - μ')`
    moves the sums carried to the new maximum, and the chunk adds its own terms. -/
theorem carried_step (x y : Fin 2048 → ℝ) (j : Fin 4) (st : EReal × EReal × EReal)
    (h : Carried x y j.val st) :
    Carried x y (j.val + 1) (step (fun k => (x k : EReal)) (fun k => (y k : EReal)) j st) := by
  obtain ⟨m, l, acc⟩ := st
  obtain ⟨μ, hl, hacc, hm⟩ := h
  simp only at hl hacc hm
  obtain ⟨φ, hφ⟩ := fold_max_coe (by norm_num : 0 < 512) (fun k => x (chunk j k))
  subst hl hacc
  rcases hm with hm | ⟨hm, hj⟩
  · subst hm
    refine ⟨max μ φ, ?_, ?_, Or.inl ?_⟩
    · show (stepC _ _ _).2.1 = _
      rw [stepC_coe (fun k => x (chunk j k)) (fun k => y (chunk j k)) μ φ _ _ hφ]
      simp only
      rw [sum_seen_succ, rescale_sum_one]
    · show (stepC _ _ _).2.2 = _
      rw [stepC_coe (fun k => x (chunk j k)) (fun k => y (chunk j k)) μ φ _ _ hφ]
      simp only
      rw [sum_seen_succ, rescale_sum]
    · show (stepC _ _ _).1 = _
      rw [stepC_coe (fun k => x (chunk j k)) (fun k => y (chunk j k)) μ φ _ _ hφ]
  · subst hm
    have h0 : ∀ f : Fin 2048 → ℝ, ∑ i ∈ seen j.val, f i = 0 := by
      intro f; rw [hj, seen_zero, Finset.sum_empty]
    have hst : step (fun k => (x k : EReal)) (fun k => (y k : EReal)) j
        (⊥, ((∑ i ∈ seen j.val, Real.exp (x i - μ) : ℝ) : EReal),
          ((∑ i ∈ seen j.val, Real.exp (x i - μ) * y i : ℝ) : EReal)) =
        ((φ : EReal), ((∑ k, Real.exp (x (chunk j k) - φ) : ℝ) : EReal),
          ((∑ k, Real.exp (x (chunk j k) - φ) * y (chunk j k) : ℝ) : EReal)) := by
      rw [h0, h0, EReal.coe_zero]
      exact stepC_bot (fun k => x (chunk j k)) (fun k => y (chunk j k)) φ hφ
    rw [hst]
    refine ⟨φ, ?_, ?_, Or.inl rfl⟩
    · simp only; rw [sum_seen_succ, h0, zero_add]
    · simp only; rw [sum_seen_succ, h0, zero_add]

/-- A ratio of shifted exponential sums does not depend on the shift: both sums take the factor `exp (ν - μ)`,
    which is positive and cancels. -/
theorem ratio_shift (x y : Fin 2048 → ℝ) (μ ν : ℝ) :
    (∑ k, Real.exp (x k - μ) * y k) * (1 / ∑ k, Real.exp (x k - μ)) =
      ∑ k, Real.exp (x k - ν) * (1 / ∑ k', Real.exp (x k' - ν)) * y k := by
  have hZ : 0 < ∑ k : Fin 2048, Real.exp (x k - ν) :=
    Finset.sum_pos (fun _ _ => Real.exp_pos _) Finset.univ_nonempty
  have he := Real.exp_pos (ν - μ)
  rw [← rescale_sum Finset.univ x y ν μ, ← rescale_sum_one Finset.univ x ν μ]
  have hk : ∀ k, Real.exp (x k - ν) * (1 / ∑ k', Real.exp (x k' - ν)) * y k =
      (1 / ∑ k', Real.exp (x k' - ν)) * (Real.exp (x k - ν) * y k) := fun k => by ring
  simp only [hk]
  rw [← Finset.mul_sum]
  field_simp

/-- On real rows the softmax mean is a real: with `ν` the largest score (a real) and `Z = ∑ exp (x k - ν)`, it is
    `∑ exp (x k - ν) * (1 / Z) * y k`. -/
theorem softmaxRow_coe (x y : Fin 2048 → ℝ) :
    ∃ ν : ℝ, softmaxRow (fun k => (x k : EReal)) (fun k => (y k : EReal)) =
      ((∑ k, Real.exp (x k - ν) * (1 / ∑ k', Real.exp (x k' - ν)) * y k : ℝ) : EReal) := by
  obtain ⟨ν, hν⟩ := fold_max_coe (by norm_num : 0 < 2048) x
  refine ⟨ν, ?_⟩
  have hZ : (∑ k : Fin 2048, Real.exp (x k - ν)) ≠ 0 :=
    (Finset.sum_pos (fun _ _ => Real.exp_pos _) Finset.univ_nonempty).ne'
  unfold softmaxRow
  simp only [hν, ← EReal.coe_sub, Ideal.exp_coe, ← ProofLib.RealOps.coe_sum]
  simp only [Ideal.div_coe hZ, ← EReal.coe_mul, ← ProofLib.RealOps.coe_sum]

/-- On real scores and values the streaming form returns the softmax mean. -/
theorem online_eq_softmax (s v : Fin 2048 → EReal) (hs : ∀ k, ∃ r : ℝ, s k = (r : EReal))
    (hv : ∀ k, ∃ r : ℝ, v k = (r : EReal)) :
    Ideal.div (streamed s v).2.2 (streamed s v).2.1 = softmaxRow s v := by
  choose x hx using hs
  choose y hy using hv
  obtain rfl : s = fun k => (x k : EReal) := funext hx
  obtain rfl : v = fun k => (y k : EReal) := funext hy
  have h4 : Carried x y 4 (streamed (fun k => (x k : EReal)) (fun k => (y k : EReal))) :=
    carried_step x y 3 _ (carried_step x y 2 _ (carried_step x y 1 _ (carried_step x y 0 _ (carried_start x y))))
  obtain ⟨μ, hl, hacc, -⟩ := h4
  obtain ⟨ν, hν⟩ := softmaxRow_coe x y
  have hZ : (∑ k : Fin 2048, Real.exp (x k - μ)) ≠ 0 :=
    (Finset.sum_pos (fun _ _ => Real.exp_pos _) Finset.univ_nonempty).ne'
  rw [hl, hacc, hν, seen_four, Ideal.div_coe hZ, ← EReal.coe_mul, ratio_shift x y μ ν]

end Cert.Attn.Row

end
-- ==== Proof.LibCube.lean ====
/-
  Rank-three blocks read at an entry.

  A kernel that works on a batch of matrices keeps its per-row quantities as columns [A, B, 1] or rows
  [A, 1, B] and spreads them over [A, B, C] blocks; it sums a block along its last axis, or along its middle
  one; the host sums an [A, B, C] array over both trailing axes at once. Each lemma here reads one such
  operation at an entry named by its coordinates: the entry of the operand it is, or the finite sum over
  the coordinates of the summed axes, for any extents A, B, C.
-/
import Idealize.ShloMosaic.Lib.Pipeline.Value
import Idealize.ShloMosaic.Lib.ValueIdx
import Idealize.ShloMosaic.PureOps.Ideal.Laws

noncomputable section

namespace Cert.Lib.Cube

open Idealize.ShloMosaic Idealize.ShloMosaic.ValueIdx

variable {α : Type} {A B C : Nat}

/-! ## Casts between a matrix and a column or a row of it -/

/-- An [A, B] matrix viewed as [A, B, 1]: entry (r, p, 0) is entry (r, p). -/
theorem cast_col (v : (⟨2, ![A, B]⟩ : Shape).Idx → α) (h : (⟨2, ![A, B]⟩ : Shape).ShapeCasts ⟨3, ![A, B, 1]⟩)
    (r : Fin A) (p : Fin B) (z : Fin 1) : shapeCast ⟨3, ![A, B, 1]⟩ v h (ix3 r p z) = v (ix2 r p) :=
  shapeCast_apply v h (ix3 r p z) (ix2 r p) (by
    have hz : z.val = 0 := by have := z.isLt; omega
    rw [Shape.rowMajor_val_two, Shape.rowMajor_val_three]
    show r.val * B + p.val = (r.val * B + p.val) * 1 + z.val
    rw [hz, Nat.mul_one, Nat.add_zero])

/-- An [A, B] matrix viewed as [A, 1, B]: entry (r, 0, q) is entry (r, q). -/
theorem cast_row (v : (⟨2, ![A, B]⟩ : Shape).Idx → α) (h : (⟨2, ![A, B]⟩ : Shape).ShapeCasts ⟨3, ![A, 1, B]⟩)
    (r : Fin A) (z : Fin 1) (q : Fin B) : shapeCast ⟨3, ![A, 1, B]⟩ v h (ix3 r z q) = v (ix2 r q) :=
  shapeCast_apply v h (ix3 r z q) (ix2 r q) (by
    have hz : z.val = 0 := by have := z.isLt; omega
    rw [Shape.rowMajor_val_two, Shape.rowMajor_val_three]
    show r.val * B + q.val = (r.val * 1 + z.val) * B + q.val
    rw [hz, Nat.mul_one, Nat.add_zero])

/-- A [B, C] matrix viewed as [1, B, C]: entry (0, p, q) is entry (p, q). -/
theorem cast_slab (v : (⟨2, ![B, C]⟩ : Shape).Idx → α) (h : (⟨2, ![B, C]⟩ : Shape).ShapeCasts ⟨3, ![1, B, C]⟩)
    (z : Fin 1) (p : Fin B) (q : Fin C) : shapeCast ⟨3, ![1, B, C]⟩ v h (ix3 z p q) = v (ix2 p q) :=
  shapeCast_apply v h (ix3 z p q) (ix2 p q) (by
    have hz : z.val = 0 := by have := z.isLt; omega
    rw [Shape.rowMajor_val_two, Shape.rowMajor_val_three]
    show p.val * C + q.val = (z.val * B + p.val) * C + q.val
    rw [hz, Nat.zero_mul, Nat.zero_add])

/-- The transpose of the two trailing axes of a column [A, B, 1] is the row [A, 1, B]. -/
theorem transpose_col (v : (⟨3, ![A, B, 1]⟩ : Shape).Idx → α)
    (h : (⟨3, ![A, B, 1]⟩ : Shape).Transposes [0, 2, 1] ⟨3, ![A, 1, B]⟩) (r : Fin A) (z : Fin 1) (q : Fin B) :
    transpose ⟨3, ![A, 1, B]⟩ [0, 2, 1] v h (ix3 r z q) = v (ix3 r q z) :=
  transpose_apply [0, 2, 1] v h (ix3 r z q) (ix3 r q z) (fun b => match b with
    | ⟨0, _⟩ => rfl
    | ⟨1, _⟩ => rfl
    | ⟨2, _⟩ => rfl)

/-! ## Columns, rows and slabs spread over a block -/

/-- A column [A, B, 1] repeated along the last axis. -/
theorem spread_col (v : (⟨3, ![A, B, 1]⟩ : Shape).Idx → α) (h : (⟨3, ![A, B, 1]⟩ : Shape).Broadcasts ⟨3, ![A, B, C]⟩)
    (r : Fin A) (p : Fin B) (q : Fin C) : broadcastTo ⟨3, ![A, B, C]⟩ v h (ix3 r p q) = v (ix3 r p (0 : Fin 1)) :=
  broadcastTo_apply v h (ix3 r p q) (ix3 r p (0 : Fin 1)) (fun a => match a with
    | ⟨0, _⟩ => by
        show r.val = if A = 1 then 0 else r.val
        split
        · have := r.isLt; omega
        · rfl
    | ⟨1, _⟩ => by
        show p.val = if B = 1 then 0 else p.val
        split
        · have := p.isLt; omega
        · rfl
    | ⟨2, _⟩ => by show 0 = if (1 : Nat) = 1 then 0 else q.val; rw [if_pos rfl])

/-- A row [A, 1, C] repeated along the middle axis. -/
theorem spread_row (v : (⟨3, ![A, 1, C]⟩ : Shape).Idx → α) (h : (⟨3, ![A, 1, C]⟩ : Shape).Broadcasts ⟨3, ![A, B, C]⟩)
    (r : Fin A) (p : Fin B) (q : Fin C) : broadcastTo ⟨3, ![A, B, C]⟩ v h (ix3 r p q) = v (ix3 r (0 : Fin 1) q) :=
  broadcastTo_apply v h (ix3 r p q) (ix3 r (0 : Fin 1) q) (fun a => match a with
    | ⟨0, _⟩ => by
        show r.val = if A = 1 then 0 else r.val
        split
        · have := r.isLt; omega
        · rfl
    | ⟨1, _⟩ => by show 0 = if (1 : Nat) = 1 then 0 else p.val; rw [if_pos rfl]
    | ⟨2, _⟩ => by
        show q.val = if C = 1 then 0 else q.val
        split
        · have := q.isLt; omega
        · rfl)

/-- A slab [1, B, C] repeated along the leading axis. -/
theorem spread_slab (v : (⟨3, ![1, B, C]⟩ : Shape).Idx → α) (h : (⟨3, ![1, B, C]⟩ : Shape).Broadcasts ⟨3, ![A, B, C]⟩)
    (r : Fin A) (p : Fin B) (q : Fin C) : broadcastTo ⟨3, ![A, B, C]⟩ v h (ix3 r p q) = v (ix3 (0 : Fin 1) p q) :=
  broadcastTo_apply v h (ix3 r p q) (ix3 (0 : Fin 1) p q) (fun a => match a with
    | ⟨0, _⟩ => by show 0 = if (1 : Nat) = 1 then 0 else r.val; rw [if_pos rfl]
    | ⟨1, _⟩ => by
        show p.val = if B = 1 then 0 else p.val
        split
        · have := p.isLt; omega
        · rfl
    | ⟨2, _⟩ => by
        show q.val = if C = 1 then 0 else q.val
        split
        · have := q.isLt; omega
        · rfl)

/-- A column [A, 1] repeated along B lanes. -/
theorem spread_col2 (v : (⟨2, ![A, 1]⟩ : Shape).Idx → α) (h : (⟨2, ![A, 1]⟩ : Shape).Broadcasts ⟨2, ![A, B]⟩)
    (r : Fin A) (p : Fin B) : broadcastTo ⟨2, ![A, B]⟩ v h (ix2 r p) = v (ix2 r (0 : Fin 1)) :=
  broadcastTo_apply v h (ix2 r p) (ix2 r (0 : Fin 1)) (fun a => match a with
    | ⟨0, _⟩ => by
        show r.val = if A = 1 then 0 else r.val
        split
        · have := r.isLt; omega
        · rfl
    | ⟨1, _⟩ => by show 0 = if (1 : Nat) = 1 then 0 else p.val; rw [if_pos rfl])

/-! ## Lane numbers -/

/-- The lane number along the last axis of a matrix. -/
theorem iota_lane (κ : Kind) (h : (⟨2, ![A, B]⟩ : Shape).Iotas κ 32 [1]) (r : Fin A) (p : Fin B) :
    iota κ ⟨2, ![A, B]⟩ 32 [1] h (ix2 r p) = BitVec.ofNat 32 p.val :=
  iota_single_apply κ ⟨2, ![A, B]⟩ 32 1 h (ix2 r p)

/-- The row number of a matrix. -/
theorem iota_row (κ : Kind) (h : (⟨2, ![A, B]⟩ : Shape).Iotas κ 32 [0]) (r : Fin A) (p : Fin B) :
    iota κ ⟨2, ![A, B]⟩ 32 [0] h (ix2 r p) = BitVec.ofNat 32 r.val :=
  iota_single_apply κ ⟨2, ![A, B]⟩ 32 0 h (ix2 r p)

/-! ## Sums along an axis, on the extended reals -/

/-- The sum of an f32 block along its last axis, read at (r, p): the sum over q of the entries (r, p, q). -/
theorem sum_last (src : FVec Ideal ⟨3, ![A, B, C]⟩ .f32) (h : (⟨3, ![A, B, C]⟩ : Shape).Reduces [2] ⟨2, ![A, B]⟩)
    (hφ : FTy.f32 = FTy.f32 ∨ FTy.f32 = FTy.bf16) (hacc : (0x00000000#32 : BitVec 32) = 0x00000000#32) (r : Fin A) (p : Fin B) :
    multiReduction .add [2] ⟨2, ![A, B]⟩ src 0x00000000#32 h hφ hacc (ix2 r p) = ∑ q : Fin C, src (ix3 r p q) := by
  refine (Ideal.multiReduction_add_single src 0x00000000#32 h hφ hacc (ix2 r p)).trans ?_
  exact Finset.sum_congr rfl fun q _ => congrArg src (funext fun a => Fin.ext (by
    match a with
    | ⟨0, _⟩ => rfl
    | ⟨1, _⟩ => rfl
    | ⟨2, _⟩ => rfl))

/-- The sum of an f32 column block [A, B, 1] along its middle axis, read at (r, 0): the sum over p of the
    entries (r, p, 0). -/
theorem sum_mid (src : FVec Ideal ⟨3, ![A, B, 1]⟩ .f32) (h : (⟨3, ![A, B, 1]⟩ : Shape).Reduces [1] ⟨2, ![A, 1]⟩)
    (hφ : FTy.f32 = FTy.f32 ∨ FTy.f32 = FTy.bf16) (hacc : (0x00000000#32 : BitVec 32) = 0x00000000#32) (r : Fin A) (z : Fin 1) :
    multiReduction .add [1] ⟨2, ![A, 1]⟩ src 0x00000000#32 h hφ hacc (ix2 r z) = ∑ p : Fin B, src (ix3 r p z) := by
  refine (Ideal.multiReduction_add_single src 0x00000000#32 h hφ hacc (ix2 r z)).trans ?_
  exact Finset.sum_congr rfl fun p _ => congrArg src (funext fun a => Fin.ext (by
    match a with
    | ⟨0, _⟩ => rfl
    | ⟨1, _⟩ => rfl
    | ⟨2, _⟩ => rfl))

/-- The host's sum of an [A, B, C] array over both trailing axes, read at r: the initial value plus the
    double sum over (p, q) of the entries (r, p, q). -/
theorem host_sum_plane (h : (⟨3, ![A, B, C]⟩ : Shape).ReducesTo [1, 2] ⟨1, ![A]⟩)
    (x : (⟨3, ![A, B, C]⟩ : Shape).Idx → EReal) (init : EReal) (r : Fin A) :
    Ideal.hostReduceAdd h x init (ix1 r) = init + ∑ p : Fin B, ∑ q : Fin C, x (ix3 r p q) := by
  unfold Ideal.hostReduceAdd
  refine congrArg (init + ·) ?_
  rw [← Finset.sum_product']
  refine Finset.sum_nbij' (fun i => ((⟨(i 1).val, (i 1).isLt⟩ : Fin B), (⟨(i 2).val, (i 2).isLt⟩ : Fin C)))
    (fun pq => ix3 r pq.1 pq.2) (fun _ _ => Finset.mem_product.2 ⟨Finset.mem_univ _, Finset.mem_univ _⟩) ?_ ?_ ?_ ?_
  · intro pq _
    refine Finset.mem_filter.2 ⟨Finset.mem_univ _, ?_⟩
    funext b
    match b with
    | ⟨0, _⟩ => exact Fin.ext rfl
  · intro i hi
    have hd := congrFun (Finset.mem_filter.1 hi).2 (0 : Fin 1)
    have h0 : (i 0).val = r.val := congrArg Fin.val hd
    funext a
    match a with
    | ⟨0, _⟩ => exact Fin.ext h0.symm
    | ⟨1, _⟩ => exact Fin.ext rfl
    | ⟨2, _⟩ => exact Fin.ext rfl
  · intro pq _
    rfl
  · intro i hi
    have hd := congrFun (Finset.mem_filter.1 hi).2 (0 : Fin 1)
    have h0 : (i 0).val = r.val := congrArg Fin.val hd
    refine congrArg x (funext fun a => ?_)
    match a with
    | ⟨0, _⟩ => exact Fin.ext h0
    | ⟨1, _⟩ => exact Fin.ext rfl
    | ⟨2, _⟩ => exact Fin.ext rfl

end Cert.Lib.Cube

end
-- ==== Proof.LibLastFold.lean ====
/-
  The host's reduction over the last axis of a rank-three array, read at an entry.

  For a commutative and associative operation `f`, reducing an `A × B × C` array over its last axis from an initial value
  gives, at `(a, b)`, the fold of `f` from the initial value over the `C` entries `(a, b, k)`. The order of the fold does not
  matter, which is what commutativity and associativity are for; a maximum from `−∞` is the case met most.
-/
import Idealize.ShloMosaic.Lib.ValueIdx
import Idealize.ShloMosaic.PureOps.Ideal.Laws

noncomputable section

namespace Cert.Lib.LastFold

open Idealize.ShloMosaic Idealize.ShloMosaic.ValueIdx

/-- With the last coordinate `k` put back, the reduced index `(a, b)` is `(a, b, k)`. -/
theorem lift_last {A B C : Nat} (h : (⟨3, ![A, B, C]⟩ : Shape).Reduces [2] ⟨2, ![A, B]⟩) (a : Fin A) (b : Fin B) (k : Fin C) :
    h.lift (ix2 a b) k = ix3 a b k := by
  funext ax
  apply Fin.ext
  match ax with
  | ⟨0, _⟩ => rfl
  | ⟨1, _⟩ => rfl
  | ⟨2, _⟩ => rfl

/-- The host's reduction over the last axis of a rank-three array, with a commutative and associative operation, at
    `(a, b)`: the fold of the operation from the initial value over the entries `(a, b, k)`. -/
theorem hostFoldLast_apply {α : Type} {A B C : Nat} {u : Shape} (f : α → α → α) [Std.Commutative f] [Std.Associative f]
    (x : (⟨3, ![A, B, C]⟩ : Shape).Idx → α) (init : u.Idx → α)
    (h' : (⟨3, ![A, B, C]⟩ : Shape).ReducesTo [2] ⟨2, ![A, B]⟩) (h : (⟨3, ![A, B, C]⟩ : Shape).Reduces [2] ⟨2, ![A, B]⟩)
    (hu : 0 < u.numel) (a : Fin A) (b : Fin B) :
    Host.reduce f x init h' hu (ix2 a b)
      = (Finset.univ : Finset (Fin C)).fold f (init (Shape.Idx.first hu)) fun k => x (ix3 a b k) := by
  rw [Host.reduce_eq_fold_single f x init h' h hu]
  have hf : (x ∘ h.lift (ix2 a b)) = fun k : Fin C => x (ix3 a b k) :=
    funext fun (k : Fin C) => congrArg x (lift_last h a b k)
  exact congrArg (fun g => Finset.fold f (init (Shape.Idx.first hu)) g (Finset.univ : Finset (Fin C))) hf

end Cert.Lib.LastFold

end
-- ==== Proof.FlashAt.lean ====
/-
  The kernel body's stored blocks, read at an entry, on the extended reals.

  One trip of the body works on the query block (1024 rows), the trip's 512 key rows and 512 value rows, and the three
  blocks it carries: the row maxima `m`, the normalisers `l` and the weighted sums `acc`. Row `r` of what it stores
  depends only on row `r` of what it finds: with the scores `s k = ∑ d, q (r, d) * key (k, d)` of that row against the
  trip's keys, the new maximum is `max m (max over k of s k)`, the old normaliser and sums are rescaled by
  `exp (m - m')` and the trip adds `∑ k, exp (s k - m')` and `∑ k, exp (s k - m') * value (k, e)`. That is one step of
  the streaming form of softmax on that row. A change of float format is the identity on the extended reals, so the
  narrowed operands of the two products are the operands themselves.
-/
import proofs.«155674_j33801392620168_2_alg».proof.Proof.FlashState
import proofs.«155674_j33801392620168_2_alg».proof.Proof.SoftmaxRow
import proofs.«155674_j33801392620168_2_alg».proof.Proof.LibCube
import proofs.«155674_j33801392620168_2_alg».proof.Proof.LibLastFold
import Idealize.ShloMosaic.Lib.ValueIdx
import Idealize.ShloMosaic.Lib.Pipeline.Value
import Idealize.ShloMosaic.PureOps.Ideal.Laws

noncomputable section

namespace Cert.Attn.Flash

open Idealize.ShloMosaic Idealize.ShloMosaic.ValueIdx Cert.KernelIdeal Cert.KernelIdeal.Gen Cert.Attn.Flash

/-! ## The operations that are not entry by entry -/

/-- The word of `-∞`. -/
theorem ofBits_neg_inf : Ideal.ofBits .f32 0xFF800000#32 = (⊥ : EReal) := by simp [Ideal.ofBits, Ideal.ieee]

/-- The maximum of a block along its last axis, as a column: at row `r` the fold of `max` from `-∞` over the row. -/
theorem max_last_col (src : FVec Ideal S1x1024x512 .f32) (r : Fin 1024) :
    shapeCast S1x1024x1 (multiReduction (F := Ideal) .maximumf [2] S1x1024 src 0xFF800000#32 reduces_S1x1024x512_S1x1024 (.inl rfl) rfl)
        shapeCasts_S1x1024_S1x1024x1 (ix3 (0 : Fin 1) r (0 : Fin 1))
      = Finset.univ.fold max (⊥ : EReal) (fun k : Fin 512 => src (ix3 (0 : Fin 1) r k)) := by
  refine (Cert.Lib.Cube.cast_col _ shapeCasts_S1x1024_S1x1024x1 (0 : Fin 1) r (0 : Fin 1)).trans ?_
  refine (Ideal.multiReduction_maximumf_single src 0xFF800000#32 reduces_S1x1024x512_S1x1024 (.inl rfl) rfl
    (ix2 (0 : Fin 1) r)).trans ?_
  have hf : (src ∘ reduces_S1x1024x512_S1x1024.lift (ix2 (0 : Fin 1) r)) = fun k : Fin 512 => src (ix3 (0 : Fin 1) r k) :=
    funext fun (k : Fin 512) => congrArg src (Cert.Lib.LastFold.lift_last reduces_S1x1024x512_S1x1024 (0 : Fin 1) r k)
  show Finset.univ.fold max (Ideal.ofBits .f32 0xFF800000#32) _ = _
  rw [ofBits_neg_inf]
  exact congrArg (fun g => Finset.fold max (⊥ : EReal) g (Finset.univ : Finset (Fin 512))) hf

/-- The sum of a block along its last axis, as a column: at row `r` the sum over the row. -/
theorem sum_last_col (src : FVec Ideal S1x1024x512 .f32) (r : Fin 1024) :
    shapeCast S1x1024x1 (multiReduction (F := Ideal) .add [2] S1x1024 src 0x00000000#32 reduces_S1x1024x512_S1x1024 (.inl rfl) rfl)
        shapeCasts_S1x1024_S1x1024x1 (ix3 (0 : Fin 1) r (0 : Fin 1))
      = ∑ k : Fin 512, src (ix3 (0 : Fin 1) r k) := by
  refine (Cert.Lib.Cube.cast_col _ shapeCasts_S1x1024_S1x1024x1 (0 : Fin 1) r (0 : Fin 1)).trans ?_
  exact Cert.Lib.Cube.sum_last src reduces_S1x1024x512_S1x1024 (.inl rfl) rfl (0 : Fin 1) r

/-! ## The two products -/

/-- The record of the product of the queries with the keys: both operands contracted on their last axis. -/
abbrev dQK : DotDims S1x1024x512 S1x512x512 S1x1024x512 := dot_S1x1024x512_S1x512x512_S1x1024x512_2_2_1_1_0_0
/-- The record of the product of the weights with the values: the left operand contracted on its last axis, the right
    on its middle one. -/
abbrev dPV : DotDims S1x1024x512 S1x512x512 S1x1024x512 := dot_S1x1024x512_S1x512x512_S1x1024x512_2_1_1_2_0_0

theorem qk_lhs_0 (i : S1x1024x512.Idx) (q : dQK.contr.Idx) : (dQK.lhsIdx i q 0).val = (i 0).val := by
  unfold DotDims.lhsIdx
  rw [dif_pos (show (0 : Fin S1x1024x512.rank) ∈ dQK.lhsBatch by decide)]
  rfl
theorem qk_lhs_1 (i : S1x1024x512.Idx) (q : dQK.contr.Idx) : (dQK.lhsIdx i q 1).val = (i 1).val := by
  unfold DotDims.lhsIdx
  rw [dif_neg (show ¬(1 : Fin S1x1024x512.rank) ∈ dQK.lhsBatch by decide),
    dif_pos (show (1 : Fin S1x1024x512.rank) ∈ dQK.lhsNonContracting by decide)]
  rfl
theorem qk_lhs_2 (i : S1x1024x512.Idx) (q : dQK.contr.Idx) : (dQK.lhsIdx i q 2).val = (q ⟨0, by decide⟩).val :=
  dQK.lhsIdx_val_of_single rfl i q
theorem qk_rhs_0 (i : S1x1024x512.Idx) (q : dQK.contr.Idx) : (dQK.rhsIdx i q 0).val = (i 0).val := by
  unfold DotDims.rhsIdx
  rw [dif_pos (show (0 : Fin S1x512x512.rank) ∈ dQK.rhsBatch by decide)]
  rfl
theorem qk_rhs_1 (i : S1x1024x512.Idx) (q : dQK.contr.Idx) : (dQK.rhsIdx i q 1).val = (i 2).val := by
  unfold DotDims.rhsIdx
  rw [dif_neg (show ¬(1 : Fin S1x512x512.rank) ∈ dQK.rhsBatch by decide),
    dif_pos (show (1 : Fin S1x512x512.rank) ∈ dQK.rhsNonContracting by decide)]
  rfl
theorem qk_rhs_2 (i : S1x1024x512.Idx) (q : dQK.contr.Idx) : (dQK.rhsIdx i q 2).val = (q ⟨0, by decide⟩).val :=
  dQK.rhsIdx_val_of_single rfl i q

/-- The product of the queries with the keys into a zero block, at (r, c): the sum over the features of query row
    `r` times key row `c`. -/
theorem qk_at (q : FVec Ideal S1x1024x512 .bf16) (k : FVec Ideal S1x512x512 .bf16) (r : Fin 1024) (c : Fin 512) :
    matmul dQK none q k (constant (F := Ideal) S1x1024x512 .f32 0x00000000#32) (ix3 (0 : Fin 1) r c)
      = ∑ d : Fin 512, q (ix3 (0 : Fin 1) r d) * k (ix3 (0 : Fin 1) c d) := by
  show FloatOps.matmul dQK none q k (constant (F := Ideal) S1x1024x512 .f32 0x00000000#32) (ix3 (0 : Fin 1) r c) = _
  rw [Ideal.matmul_constant_zero_apply, ← Equiv.sum_comp (contrEquiv1 dQK 512 rfl rfl).symm]
  refine Finset.sum_congr rfl fun d _ => ?_
  have hd := contrEquiv1_symm_val dQK 512 rfl rfl d
  have el : dQK.lhsIdx (ix3 (0 : Fin 1) r c) ((contrEquiv1 dQK 512 rfl rfl).symm d) = ix3 (0 : Fin 1) r d :=
    funext fun a => Fin.ext (by
      match a with
      | ⟨0, _⟩ => exact qk_lhs_0 _ _
      | ⟨1, _⟩ => exact qk_lhs_1 _ _
      | ⟨2, _⟩ => exact (qk_lhs_2 _ _).trans hd)
  have er : dQK.rhsIdx (ix3 (0 : Fin 1) r c) ((contrEquiv1 dQK 512 rfl rfl).symm d) = ix3 (0 : Fin 1) c d :=
    funext fun a => Fin.ext (by
      match a with
      | ⟨0, _⟩ => exact qk_rhs_0 _ _
      | ⟨1, _⟩ => exact qk_rhs_1 _ _
      | ⟨2, _⟩ => exact (qk_rhs_2 _ _).trans hd)
  rw [el, er]

theorem pv_lhs_0 (i : S1x1024x512.Idx) (q : dPV.contr.Idx) : (dPV.lhsIdx i q 0).val = (i 0).val := by
  unfold DotDims.lhsIdx
  rw [dif_pos (show (0 : Fin S1x1024x512.rank) ∈ dPV.lhsBatch by decide)]
  rfl
theorem pv_lhs_1 (i : S1x1024x512.Idx) (q : dPV.contr.Idx) : (dPV.lhsIdx i q 1).val = (i 1).val := by
  unfold DotDims.lhsIdx
  rw [dif_neg (show ¬(1 : Fin S1x1024x512.rank) ∈ dPV.lhsBatch by decide),
    dif_pos (show (1 : Fin S1x1024x512.rank) ∈ dPV.lhsNonContracting by decide)]
  rfl
theorem pv_lhs_2 (i : S1x1024x512.Idx) (q : dPV.contr.Idx) : (dPV.lhsIdx i q 2).val = (q ⟨0, by decide⟩).val :=
  dPV.lhsIdx_val_of_single rfl i q
theorem pv_rhs_0 (i : S1x1024x512.Idx) (q : dPV.contr.Idx) : (dPV.rhsIdx i q 0).val = (i 0).val := by
  unfold DotDims.rhsIdx
  rw [dif_pos (show (0 : Fin S1x512x512.rank) ∈ dPV.rhsBatch by decide)]
  rfl
theorem pv_rhs_1 (i : S1x1024x512.Idx) (q : dPV.contr.Idx) : (dPV.rhsIdx i q 1).val = (q ⟨0, by decide⟩).val :=
  dPV.rhsIdx_val_of_single rfl i q
theorem pv_rhs_2 (i : S1x1024x512.Idx) (q : dPV.contr.Idx) : (dPV.rhsIdx i q 2).val = (i 2).val := by
  unfold DotDims.rhsIdx
  rw [dif_neg (show ¬(2 : Fin S1x512x512.rank) ∈ dPV.rhsBatch by decide),
    dif_pos (show (2 : Fin S1x512x512.rank) ∈ dPV.rhsNonContracting by decide)]
  rfl

/-- The product of the weights with the values into a zero block, at (r, e): the sum over the trip's keys of the
    weight of key `k` in row `r` times feature `e` of value row `k`. -/
theorem pv_at (p : FVec Ideal S1x1024x512 .bf16) (v : FVec Ideal S1x512x512 .bf16) (r : Fin 1024) (e : Fin 512) :
    matmul dPV none p v (constant (F := Ideal) S1x1024x512 .f32 0x00000000#32) (ix3 (0 : Fin 1) r e)
      = ∑ k : Fin 512, p (ix3 (0 : Fin 1) r k) * v (ix3 (0 : Fin 1) k e) := by
  show FloatOps.matmul dPV none p v (constant (F := Ideal) S1x1024x512 .f32 0x00000000#32) (ix3 (0 : Fin 1) r e) = _
  rw [Ideal.matmul_constant_zero_apply, ← Equiv.sum_comp (contrEquiv1 dPV 512 rfl rfl).symm]
  refine Finset.sum_congr rfl fun k _ => ?_
  have hk := contrEquiv1_symm_val dPV 512 rfl rfl k
  have el : dPV.lhsIdx (ix3 (0 : Fin 1) r e) ((contrEquiv1 dPV 512 rfl rfl).symm k) = ix3 (0 : Fin 1) r k :=
    funext fun a => Fin.ext (by
      match a with
      | ⟨0, _⟩ => exact pv_lhs_0 _ _
      | ⟨1, _⟩ => exact pv_lhs_1 _ _
      | ⟨2, _⟩ => exact (pv_lhs_2 _ _).trans hk)
  have er : dPV.rhsIdx (ix3 (0 : Fin 1) r e) ((contrEquiv1 dPV 512 rfl rfl).symm k) = ix3 (0 : Fin 1) k e :=
    funext fun a => Fin.ext (by
      match a with
      | ⟨0, _⟩ => exact pv_rhs_0 _ _
      | ⟨1, _⟩ => exact (pv_rhs_1 _ _).trans hk
      | ⟨2, _⟩ => exact pv_rhs_2 _ _)
  rw [el, er]

/-! ## The body's values at an entry -/

/-- The scores of a trip at (r, c): query row `r` against the trip's key row `c`. -/
theorem scores_at (q : FVec Ideal S1x1024x512 .bf16) (kc : Vec Ideal S1x512x512 .f32) (r : Fin 1024) (c : Fin 512) :
    k0_pay8 q kc (ix3 (0 : Fin 1) r c) = ∑ d : Fin 512, q (ix3 (0 : Fin 1) r d) * kc (ix3 (0 : Fin 1) c d) := by
  unfold k0_pay8
  exact qk_at q (truncf .bf16 kc bitsLt_bf16_f32) r c

/-- The new maximum of row `r`: the larger of the one found and the largest score of the trip. -/
theorem newmax_at (q : FVec Ideal S1x1024x512 .bf16) (kc : Vec Ideal S1x512x512 .f32) (m : Vec Ideal S1x1024x1 .f32)
    (r : Fin 1024) :
    k0_pay9 q kc m (ix3 (0 : Fin 1) r (0 : Fin 1))
      = max (m (ix3 (0 : Fin 1) r (0 : Fin 1)))
          (Finset.univ.fold max (⊥ : EReal) (fun c : Fin 512 => ∑ d : Fin 512, q (ix3 (0 : Fin 1) r d) * kc (ix3 (0 : Fin 1) c d))) := by
  unfold k0_pay9
  refine congrArg (max (m (ix3 (0 : Fin 1) r (0 : Fin 1)))) ((max_last_col (k0_pay8 q kc) r).trans ?_)
  exact congrArg (fun g => Finset.fold max (⊥ : EReal) g (Finset.univ : Finset (Fin 512)))
    (funext fun c => scores_at q kc r c)

/-- The factor that rescales what row `r` carries: `exp (m - m')`. -/
theorem rescale_at (q : FVec Ideal S1x1024x512 .bf16) (kc : Vec Ideal S1x512x512 .f32) (m : Vec Ideal S1x1024x1 .f32)
    (r : Fin 1024) :
    k0_pay10 q kc m (ix3 (0 : Fin 1) r (0 : Fin 1))
      = Ideal.exp (m (ix3 (0 : Fin 1) r (0 : Fin 1)) - k0_pay9 q kc m (ix3 (0 : Fin 1) r (0 : Fin 1))) := by
  unfold k0_pay10
  rfl

/-- The weight of key `c` in row `r`, relative to the new maximum: `exp (s - m')`. -/
theorem weight_at (q : FVec Ideal S1x1024x512 .bf16) (kc : Vec Ideal S1x512x512 .f32) (m : Vec Ideal S1x1024x1 .f32)
    (r : Fin 1024) (c : Fin 512) :
    k0_pay11 q kc m (ix3 (0 : Fin 1) r c)
      = Ideal.exp (k0_pay8 q kc (ix3 (0 : Fin 1) r c) - k0_pay9 q kc m (ix3 (0 : Fin 1) r (0 : Fin 1))) := by
  unfold k0_pay11
  show Ideal.exp (k0_pay8 q kc (ix3 (0 : Fin 1) r c)
      - broadcastTo S1x1024x512 (k0_pay9 q kc m) broadcasts_S1x1024x1_S1x1024x512 (ix3 (0 : Fin 1) r c)) = _
  exact congrArg (fun t => Ideal.exp (k0_pay8 q kc (ix3 (0 : Fin 1) r c) - t))
    (Cert.Lib.Cube.spread_col (k0_pay9 q kc m) broadcasts_S1x1024x1_S1x1024x512 (0 : Fin 1) r c)

/-- The new normaliser of row `r`: the one found, rescaled, plus the trip's weights. -/
theorem newsum_at (q : FVec Ideal S1x1024x512 .bf16) (kc : Vec Ideal S1x512x512 .f32) (m l : Vec Ideal S1x1024x1 .f32)
    (r : Fin 1024) :
    k0_pay12 q kc m l (ix3 (0 : Fin 1) r (0 : Fin 1))
      = k0_pay10 q kc m (ix3 (0 : Fin 1) r (0 : Fin 1)) * l (ix3 (0 : Fin 1) r (0 : Fin 1))
        + ∑ c : Fin 512, k0_pay11 q kc m (ix3 (0 : Fin 1) r c) := by
  unfold k0_pay12
  refine (congrFun (shapeCast_self _ shapeCasts_S1x1024x1_S1x1024x1) (ix3 (0 : Fin 1) r (0 : Fin 1))).trans ?_
  exact congrArg (fun t => k0_pay10 q kc m (ix3 (0 : Fin 1) r (0 : Fin 1)) * l (ix3 (0 : Fin 1) r (0 : Fin 1)) + t)
    (sum_last_col (k0_pay11 q kc m) r)

/-- The new weighted sum of row `r` at feature `e`: the one found, rescaled, plus the trip's weights times the
    trip's values. -/
theorem newacc_at (q : FVec Ideal S1x1024x512 .bf16) (kc vc : Vec Ideal S1x512x512 .f32) (m : Vec Ideal S1x1024x1 .f32)
    (acc : Vec Ideal S1x1024x512 .f32) (r : Fin 1024) (e : Fin 512) :
    k0_pay13 q kc vc m acc (ix3 (0 : Fin 1) r e)
      = k0_pay10 q kc m (ix3 (0 : Fin 1) r (0 : Fin 1)) * acc (ix3 (0 : Fin 1) r e)
        + ∑ c : Fin 512, k0_pay11 q kc m (ix3 (0 : Fin 1) r c) * vc (ix3 (0 : Fin 1) c e) := by
  unfold k0_pay13
  show broadcastTo S1x1024x512 (k0_pay10 q kc m) broadcasts_S1x1024x1_S1x1024x512 (ix3 (0 : Fin 1) r e) * acc (ix3 (0 : Fin 1) r e)
      + matmul dPV none (truncf .bf16 (k0_pay11 q kc m) bitsLt_bf16_f32) (truncf .bf16 vc bitsLt_bf16_f32)
          (constant (F := Ideal) S1x1024x512 .f32 0x00000000#32) (ix3 (0 : Fin 1) r e) = _
  rw [Cert.Lib.Cube.spread_col (k0_pay10 q kc m) broadcasts_S1x1024x1_S1x1024x512 (0 : Fin 1) r e,
    pv_at (truncf .bf16 (k0_pay11 q kc m) bitsLt_bf16_f32) (truncf .bf16 vc bitsLt_bf16_f32) r e]
  rfl

/-! ## The stored blocks at an entry -/

/-- Narrowing the queries changes nothing on the extended reals. -/
theorem query_at (x0 : Vec Ideal S1x1024x512 .f32) (i : S1x1024x512.Idx) : k0_pay4 x0 i = x0 i := rfl

/-- Before the first trip row `r` holds `-∞`, `0` and zeros. -/
theorem start_at (r : Fin 1024) (e : Fin 512) :
    ((start (F := Ideal)).1 (ix3 (0 : Fin 1) r (0 : Fin 1)), (start (F := Ideal)).2.1 (ix3 (0 : Fin 1) r (0 : Fin 1)),
        (start (F := Ideal)).2.2 (ix3 (0 : Fin 1) r e)) = ((⊥ : EReal), (0 : EReal), (0 : EReal)) := by
  refine Prod.ext ?_ (Prod.ext ?_ ?_)
  · show k0_pay1 (F := Ideal) (ix3 (0 : Fin 1) r (0 : Fin 1)) = (⊥ : EReal)
    unfold k0_pay1
    refine (congrFun (shapeCast_self _ shapeCasts_S1x1024x1_S1x1024x1) (ix3 (0 : Fin 1) r (0 : Fin 1))).trans ?_
    exact ofBits_neg_inf
  · show k0_pay2 (F := Ideal) (ix3 (0 : Fin 1) r (0 : Fin 1)) = (0 : EReal)
    unfold k0_pay2
    refine (congrFun (shapeCast_self _ shapeCasts_S1x1024x1_S1x1024x1) (ix3 (0 : Fin 1) r (0 : Fin 1))).trans ?_
    exact Ideal.ofBits_zero_f32
  · show k0_pay3 (F := Ideal) (ix3 (0 : Fin 1) r e) = (0 : EReal)
    unfold k0_pay3
    refine (congrFun (shapeCast_self _ shapeCasts_S1x1024x512_S1x1024x512) (ix3 (0 : Fin 1) r e)).trans ?_
    exact Ideal.ofBits_zero_f32

/-- The maximum a trip stores for row `r`. -/
theorem next_max_at (x0 : Vec Ideal S1x1024x512 .f32) (kc vc : Vec Ideal S1x512x512 .f32) (st : St Ideal) (r : Fin 1024) :
    (next x0 kc vc st).1 (ix3 (0 : Fin 1) r (0 : Fin 1))
      = max (st.1 (ix3 (0 : Fin 1) r (0 : Fin 1)))
          (Finset.univ.fold max (⊥ : EReal) (fun c : Fin 512 => ∑ d : Fin 512, x0 (ix3 (0 : Fin 1) r d) * kc (ix3 (0 : Fin 1) c d))) := by
  show k0_pay6 (k0_pay9 (k0_pay4 x0) kc st.1) (ix3 (0 : Fin 1) r (0 : Fin 1)) = _
  unfold k0_pay6
  refine (congrFun (shapeCast_self _ shapeCasts_S1x1024x1_S1x1024x1) (ix3 (0 : Fin 1) r (0 : Fin 1))).trans ?_
  exact newmax_at (k0_pay4 x0) kc st.1 r

/-- The normaliser a trip stores for row `r`. -/
theorem next_sum_at (x0 : Vec Ideal S1x1024x512 .f32) (kc vc : Vec Ideal S1x512x512 .f32) (st : St Ideal) (r : Fin 1024) :
    (next x0 kc vc st).2.1 (ix3 (0 : Fin 1) r (0 : Fin 1))
      = Ideal.exp (st.1 (ix3 (0 : Fin 1) r (0 : Fin 1)) - (next x0 kc vc st).1 (ix3 (0 : Fin 1) r (0 : Fin 1)))
          * st.2.1 (ix3 (0 : Fin 1) r (0 : Fin 1))
        + ∑ c : Fin 512, Ideal.exp ((∑ d : Fin 512, x0 (ix3 (0 : Fin 1) r d) * kc (ix3 (0 : Fin 1) c d))
            - (next x0 kc vc st).1 (ix3 (0 : Fin 1) r (0 : Fin 1))) := by
  rw [next_max_at]
  show k0_pay12 (k0_pay4 x0) kc st.1 st.2.1 (ix3 (0 : Fin 1) r (0 : Fin 1)) = _
  rw [newsum_at, rescale_at, newmax_at]
  simp only [weight_at, scores_at, newmax_at, query_at]

/-- The weighted sum a trip stores for row `r` at feature `e`. -/
theorem next_acc_at (x0 : Vec Ideal S1x1024x512 .f32) (kc vc : Vec Ideal S1x512x512 .f32) (st : St Ideal) (r : Fin 1024)
    (e : Fin 512) :
    (next x0 kc vc st).2.2 (ix3 (0 : Fin 1) r e)
      = Ideal.exp (st.1 (ix3 (0 : Fin 1) r (0 : Fin 1)) - (next x0 kc vc st).1 (ix3 (0 : Fin 1) r (0 : Fin 1)))
          * st.2.2 (ix3 (0 : Fin 1) r e)
        + ∑ c : Fin 512, Ideal.exp ((∑ d : Fin 512, x0 (ix3 (0 : Fin 1) r d) * kc (ix3 (0 : Fin 1) c d))
            - (next x0 kc vc st).1 (ix3 (0 : Fin 1) r (0 : Fin 1))) * vc (ix3 (0 : Fin 1) c e) := by
  rw [next_max_at]
  show k0_pay5 (k0_pay13 (k0_pay4 x0) kc vc st.1 st.2.2) (ix3 (0 : Fin 1) r e) = _
  unfold k0_pay5
  refine (congrFun (shapeCast_self _ shapeCasts_S1x1024x512_S1x1024x512) (ix3 (0 : Fin 1) r e)).trans ?_
  rw [newacc_at, rescale_at, newmax_at]
  simp only [weight_at, scores_at, newmax_at, query_at]

/-- The block finally written, at (r, e): the weighted sum over the normaliser of row `r`. -/
theorem result_at (st : St Ideal) (r : Fin 1024) (e : Fin 512) :
    result st (ix3 (0 : Fin 1) r e) = Ideal.div (st.2.2 (ix3 (0 : Fin 1) r e)) (st.2.1 (ix3 (0 : Fin 1) r (0 : Fin 1))) := by
  show k0_pay7 (F := Ideal) st.2.2 st.2.1 (ix3 (0 : Fin 1) r e) = _
  unfold k0_pay7
  show Ideal.div (st.2.2 (ix3 (0 : Fin 1) r e))
      (broadcastTo S1x1024x512 st.2.1 broadcasts_S1x1024x1_S1x1024x512 (ix3 (0 : Fin 1) r e)) = _
  exact congrArg (Ideal.div (st.2.2 (ix3 (0 : Fin 1) r e)))
    (Cert.Lib.Cube.spread_col st.2.1 broadcasts_S1x1024x1_S1x1024x512 (0 : Fin 1) r e)

/-- One trip of the body, on row `r` and feature `e`, is one step of the streaming form of softmax on that row's
    scores against the trip's keys and the trip's values at feature `e`. -/
theorem next_at (x0 : Vec Ideal S1x1024x512 .f32) (kc vc : Vec Ideal S1x512x512 .f32) (st : St Ideal) (r : Fin 1024)
    (e : Fin 512) :
    ((next x0 kc vc st).1 (ix3 (0 : Fin 1) r (0 : Fin 1)), (next x0 kc vc st).2.1 (ix3 (0 : Fin 1) r (0 : Fin 1)),
        (next x0 kc vc st).2.2 (ix3 (0 : Fin 1) r e))
      = Cert.Attn.Row.stepC (fun k : Fin 512 => ∑ d : Fin 512, x0 (ix3 (0 : Fin 1) r d) * kc (ix3 (0 : Fin 1) k d))
          (fun k : Fin 512 => vc (ix3 (0 : Fin 1) k e))
          (st.1 (ix3 (0 : Fin 1) r (0 : Fin 1)), st.2.1 (ix3 (0 : Fin 1) r (0 : Fin 1)), st.2.2 (ix3 (0 : Fin 1) r e)) := by
  refine Prod.ext ?_ (Prod.ext ?_ ?_)
  · exact next_max_at x0 kc vc st r
  · exact (next_sum_at x0 kc vc st r).trans (by rw [next_max_at]; rfl)
  · exact (next_acc_at x0 kc vc st r e).trans (by rw [next_max_at]; rfl)

end Cert.Attn.Flash

end
-- ==== Proof.FlashEntry.lean ====
/-
  One entry of the block the body writes, as the streaming row.

  Fix a row `r` of the query block and a feature `e`. The row's scores against the 2048 key rows are the inner products
  `s k = ∑ d, x0 (0, r, d) * x1 (0, k, d)`, and the values it averages are column `e` of the value block,
  `v k = x2 (0, k, e)`. Trip `j` of the body reads rows `512 j … 512 j + 511` of both blocks (`rowsOf_at`), so on the
  triple (maximum of row `r`, normaliser of row `r`, weighted sum at `(r, e)`) it acts as the streaming step on chunk
  `j` of `s` and `v` (`entry_succ`); the body's block at `(r, e)` is therefore the streamed quotient (`body_entry`).
-/
import proofs.«155674_j33801392620168_2_alg».proof.Proof.FlashRun
import proofs.«155674_j33801392620168_2_alg».proof.Proof.FlashAt
import proofs.«155674_j33801392620168_2_alg».proof.Proof.SoftmaxRow

set_option maxRecDepth 16384

noncomputable section

namespace Cert.Attn.Flash

open Idealize.ShloMosaic Idealize.ShloMosaic.ValueIdx Cert.KernelIdeal Cert.KernelIdeal.Gen

/-- Trip `k` reads from row `512 k` of the key and value blocks. -/
theorem off_eq : ∀ k : Fin k0_t1_loop.trips, k0_off1 k = ![0, 512 * k.val, 0] := by decide +kernel

/-- Row `c` of the rows trip `k` reads is row `512 k + c` of the block. -/
theorem rowsOf_at (x : Vec Ideal S1x2048x512 .f32) (k : Fin k0_t1_loop.trips) (c : Fin 512) (d : Fin 512)
    (hk : 512 * k.val + c.val < 2048) :
    rowsOf x k (ix3 (0 : Fin 1) c d) = x (ix3 (0 : Fin 1) (⟨512 * k.val + c.val, hk⟩ : Fin 2048) d) := by
  show x ((Rect.unit (s := S1x2048x512) (k0_off1 k) S1x512x512.size (k0_off1_inb k)).idx (ix3 (0 : Fin 1) c d)) = _
  refine congrArg _ ?_
  have ho := off_eq k
  funext a; apply Fin.ext
  match a with
  | ⟨0, _⟩ => show (k0_off1 k) (0 : Fin 3) + 1 * 0 = 0; rw [ho]; rfl
  | ⟨1, _⟩ => show (k0_off1 k) (1 : Fin 3) + 1 * c.val = 512 * k.val + c.val; rw [ho]; show 512 * k.val + 1 * c.val = _; omega
  | ⟨2, _⟩ => show (k0_off1 k) (2 : Fin 3) + 1 * d.val = d.val; rw [ho]; show 0 + 1 * d.val = _; omega

section Entry

variable (x0 : Vec Ideal S1x1024x512 .f32) (x1 x2 : Vec Ideal S1x2048x512 .f32) (r : Fin 1024) (e : Fin 512)

/-- The scores of row `r` of the query block against the key block's rows. -/
def rowScores : Fin 2048 → EReal := fun k => ∑ d : Fin 512, x0 (ix3 (0 : Fin 1) r d) * x1 (ix3 (0 : Fin 1) k d)

/-- Column `e` of the value block. -/
def colValues : Fin 2048 → EReal := fun k => x2 (ix3 (0 : Fin 1) k e)

/-- The carried triple at row `r`, feature `e`, after `j` trips. -/
def entryAfter (j : ℕ) : EReal × EReal × EReal :=
  ((stateAfter x0 x1 x2 j).1 (ix3 (0 : Fin 1) r (0 : Fin 1)), (stateAfter x0 x1 x2 j).2.1 (ix3 (0 : Fin 1) r (0 : Fin 1)),
    (stateAfter x0 x1 x2 j).2.2 (ix3 (0 : Fin 1) r e))

theorem entry_zero : entryAfter x0 x1 x2 r e 0 = ((⊥ : EReal), (0 : EReal), (0 : EReal)) := start_at r e

/-- A trip acts on the triple as the streaming step on its chunk of the row. -/
theorem entry_succ (j : Fin 4) :
    entryAfter x0 x1 x2 r e (j.val + 1) = Row.step (rowScores x0 x1 r) (colValues x2 e) j (entryAfter x0 x1 x2 r e j.val) := by
  have hlt : j.val < k0_t1_loop.trips := by rw [trips_eq]; exact j.isLt
  unfold entryAfter
  rw [stateAfter, dif_pos hlt, next_at]
  unfold Row.step
  have hs : (fun k : Fin 512 => ∑ d : Fin 512, x0 (ix3 (0 : Fin 1) r d) * rowsOf x1 ⟨j.val, hlt⟩ (ix3 (0 : Fin 1) k d))
      = fun k : Fin 512 => rowScores x0 x1 r (Row.chunk j k) := by
    funext k
    refine Finset.sum_congr rfl fun d _ => ?_
    rw [rowsOf_at x1 ⟨j.val, hlt⟩ k d (by have := j.isLt; have := k.isLt; show 512 * j.val + k.val < 2048; omega)]
    rfl
  have hv : (fun k : Fin 512 => rowsOf x2 ⟨j.val, hlt⟩ (ix3 (0 : Fin 1) k e))
      = fun k : Fin 512 => colValues x2 e (Row.chunk j k) := by
    funext k
    rw [rowsOf_at x2 ⟨j.val, hlt⟩ k e (by have := j.isLt; have := k.isLt; show 512 * j.val + k.val < 2048; omega)]
    rfl
  rw [hs, hv]

/-- After the four trips the triple is the streamed one. -/
theorem entry_four : entryAfter x0 x1 x2 r e k0_t1_loop.trips = Row.streamed (rowScores x0 x1 r) (colValues x2 e) := by
  rw [trips_eq]
  unfold Row.streamed
  rw [← entry_zero x0 x1 x2 r e]
  exact ((entry_succ x0 x1 x2 r e 3).trans (congrArg _ ((entry_succ x0 x1 x2 r e 2).trans (congrArg _
    ((entry_succ x0 x1 x2 r e 1).trans (congrArg _ (entry_succ x0 x1 x2 r e 0)))))))

/-- Entry `(r, e)` of the block the body writes: the streamed weighted sum over the streamed normaliser. -/
theorem body_entry :
    result (stateAfter x0 x1 x2 k0_t1_loop.trips) (ix3 (0 : Fin 1) r e)
      = Ideal.div (Row.streamed (rowScores x0 x1 r) (colValues x2 e)).2.2 (Row.streamed (rowScores x0 x1 r) (colValues x2 e)).2.1 := by
  rw [result_at, ← entry_four x0 x1 x2 r e]
  rfl

end Entry

end Cert.Attn.Flash

end
-- ==== Proof.Blocks.lean ====
/-
  The grid's blocks.

  The grid has 8 × 2 points: point `(n, h)` computes rows `1024 h` to `1024 h + 1023` of batch `n` of the output. Its
  query block is the same rows of batch `n` of the queries; its key and value blocks are all 2048 rows of batch `n`
  of the keys and of the values. Read at an entry, each block is the argument array at the entry's place in the array
  (`q_block`, `k_block`, `v_block`); an index of the output lies in point `(n, h)`'s block exactly when its batch is `n`
  and its row is in that half (`mem_out_block`), so the sixteen blocks cover the output (`out_cover`).
-/
import proofs.«155674_j33801392620168_2_alg».proof.Proof.Gen.KernelIdeal.Value
import Idealize.ShloMosaic.Lib.ValueIdx

set_option maxRecDepth 16384

noncomputable section

namespace Cert.Attn.Blocks

open Idealize.ShloMosaic Idealize.ShloMosaic.TcCoe Idealize.ShloMosaic.ValueIdx Idealize.SL.Sem Cert.KernelIdeal Cert.KernelIdeal.Gen
open Idealize.ShloMosaic.Pipeline (Dat)

variable {F : FTy → Type} [FloatOps F]
variable (m : (ℓ : Loc nD τ sig) → Buf (Elt F) ℓ)

/-- The four index maps over the sixteen grid points: the query block moves with the output block, the key and value
    blocks move with its batch only, and the output's block indices range over 8 batches and 2 halves. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) ≤ 1 :=
  (by decide +kernel : ∀ t : Fin grid0.N, _)

/-- Every (batch, half) is some grid point's output block. -/
theorem idx_onto : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

/-- The query block at a point whose output block is (batch `n`, half `h`): row `r` is row `1024 h + r` of batch `n`. -/
theorem q_block (c : Dev nD) (t : Fin cfg0.N) (n : Fin 8) (h : Fin 2) (hn : win0_3.index t (0 : Fin 3) = n.val)
    (hh : win0_3.index t (1 : Fin 3) = h.val) (r : Fin 1024) (d : Fin 512) :
    (iblk m c 0 t : Vec F S1x1024x512 .f32) (ix3 (0 : Fin 1) r d)
      = V m c main_arg0 (ix3 n (⟨1024 * h.val + r.val, by omega⟩ : Fin 2048) d) := by
  show V m c main_arg0 (((cfg0.win 0).blk t).view.emb (ix3 (0 : Fin 1) r d)) = _
  refine congrArg _ ?_
  obtain ⟨e0, e1, e2, e3, e4, e5, e6, e7, e8, e9, e10, e11⟩ := idx_facts t
  funext a; apply Fin.ext
  match a with
  | ⟨0, _⟩ => show win0_0.index t (0 : Fin 3) * 1 + 1 * 0 = n.val; omega
  | ⟨1, _⟩ => show win0_0.index t (1 : Fin 3) * 1024 + 1 * r.val = 1024 * h.val + r.val; omega
  | ⟨2, _⟩ => show win0_0.index t (2 : Fin 3) * 512 + 1 * d.val = d.val; omega

/-- The key block at a point whose output block is in batch `n`: all the rows of batch `n`. -/
theorem k_block (c : Dev nD) (t : Fin cfg0.N) (n : Fin 8) (hn : win0_3.index t (0 : Fin 3) = n.val) (k : Fin 2048) (d : Fin 512) :
    (iblk m c 1 t : Vec F S1x2048x512 .f32) (ix3 (0 : Fin 1) k d) = V m c main_arg1 (ix3 n k d) := by
  show V m c main_arg1 (((cfg0.win 1).blk t).view.emb (ix3 (0 : Fin 1) k d)) = _
  refine congrArg _ ?_
  obtain ⟨e0, e1, e2, e3, e4, e5, e6, e7, e8, e9, e10, e11⟩ := idx_facts t
  funext a; apply Fin.ext
  match a with
  | ⟨0, _⟩ => show win0_1.index t (0 : Fin 3) * 1 + 1 * 0 = n.val; omega
  | ⟨1, _⟩ => show win0_1.index t (1 : Fin 3) * 2048 + 1 * k.val = k.val; omega
  | ⟨2, _⟩ => show win0_1.index t (2 : Fin 3) * 512 + 1 * d.val = d.val; omega

/-- The value block likewise. -/
theorem v_block (c : Dev nD) (t : Fin cfg0.N) (n : Fin 8) (hn : win0_3.index t (0 : Fin 3) = n.val) (k : Fin 2048) (d : Fin 512) :
    (iblk m c 2 t : Vec F S1x2048x512 .f32) (ix3 (0 : Fin 1) k d) = V m c main_arg2 (ix3 n k d) := by
  show V m c main_arg2 (((cfg0.win 2).blk t).view.emb (ix3 (0 : Fin 1) k d)) = _
  refine congrArg _ ?_
  obtain ⟨e0, e1, e2, e3, e4, e5, e6, e7, e8, e9, e10, e11⟩ := idx_facts t
  funext a; apply Fin.ext
  match a with
  | ⟨0, _⟩ => show win0_2.index t (0 : Fin 3) * 1 + 1 * 0 = n.val; omega
  | ⟨1, _⟩ => show win0_2.index t (1 : Fin 3) * 2048 + 1 * k.val = k.val; omega
  | ⟨2, _⟩ => show win0_2.index t (2 : Fin 3) * 512 + 1 * d.val = d.val; omega

/-- The place in the output array of entry `(r, e)` of the output block of a point at (batch `n`, half `h`). -/
theorem out_emb (t : Fin cfg0.N) (n : Fin 8) (h : Fin 2) (hn : win0_3.index t (0 : Fin 3) = n.val)
    (hh : win0_3.index t (1 : Fin 3) = h.val) (r : Fin 1024) (e : Fin 512) :
    ((cfg0.win 3).blk t).view.emb (ix3 (0 : Fin 1) r e) = ix3 n (⟨1024 * h.val + r.val, by omega⟩ : Fin 2048) e := by
  obtain ⟨e0, e1, e2, e3, e4, e5, e6, e7, e8, e9, e10, e11⟩ := idx_facts t
  funext a; apply Fin.ext
  match a with
  | ⟨0, _⟩ => show win0_3.index t (0 : Fin 3) * 1 + 1 * 0 = n.val; omega
  | ⟨1, _⟩ => show win0_3.index t (1 : Fin 3) * 1024 + 1 * r.val = 1024 * h.val + r.val; omega
  | ⟨2, _⟩ => show win0_3.index t (2 : Fin 3) * 512 + 1 * e.val = e.val; omega

/-- An index of the output is in point `t`'s block iff each coordinate is in the block's range on its axis. -/
theorem mem_out_block (t : Fin cfg0.N) (i : S8x2048x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v0).slice (win0_3.rect t)).set ↔ _
  rw [View.set_slice_whole, Rect.mem_set_unit]
  exact Iff.rfl

/-- The sixteen output blocks cover the output array. -/
theorem out_cover (i : S8x2048x512.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 512 := (i 2).isLt
  obtain ⟨t, ht⟩ := idx_onto ⟨(i 0).val, by omega⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_out_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

end Cert.Attn.Blocks

end
-- ==== Proof.AttnSpec.lean ====
/-
  Dense softmax attention without scaling, as one function of the three argument arrays, entry by entry.

  For batch `n`, query `q` and feature `e`: the scores of the row are the inner products of query row `(n, q)` with
  every key row `(n, k)` over the 512 features (`score`), and the entry is the softmax-weighted mean, under those
  scores, of column `e` of the values of batch `n` (`Row.softmaxRow`).
-/
import Idealize.ShloMosaic.Lib.ValueIdx
import proofs.«155674_j33801392620168_2_alg».proof.Proof.SoftmaxRow

noncomputable section

namespace Cert.Attn

open Idealize.ShloMosaic Idealize.ShloMosaic.ValueIdx

/-- The shape of the three arguments and of the result: 8 batches, 2048 rows, 512 features. -/
abbrev A3 : Shape := ⟨3, ![8, 2048, 512]⟩

/-- The score of query row `(n, q)` against key row `(n, k)`: their inner product over the features. -/
def score (Q K : A3.Idx → EReal) (n : Fin 8) (q k : Fin 2048) : EReal :=
  ∑ d : Fin 512, Q (ix3 n q d) * K (ix3 n k d)

/-- Entry `(n, q, e)` of the attention output. -/
def attnAt (Q K V : A3.Idx → EReal) (n : Fin 8) (q : Fin 2048) (e : Fin 512) : EReal :=
  Row.softmaxRow (fun k => score Q K n q k) (fun k => V (ix3 n k e))

/-- The attention output as an array. -/
def attn (Q K V : A3.Idx → EReal) : A3.Idx → EReal := fun i => attnAt Q K V (i 0) (i 1) (i 2)

theorem attn_apply (Q K V : A3.Idx → EReal) (n : Fin 8) (q : Fin 2048) (e : Fin 512) :
    attn Q K V (ix3 n q e) = attnAt Q K V n q e := rfl

end Cert.Attn

end
-- ==== Proof.AttnValue.lean ====
/-
  What the kernel's result array holds: the attention output of its three arguments.

  At a grid point at (batch `n`, half `h`) the body's block at `(r, e)` is the streamed quotient of the scores of query
  row `1024 h + r` of batch `n` and of column `e` of batch `n`'s values (the blocks read at their places in the arrays);
  where the arguments' entries are reals the scores are reals, and the streamed quotient is the softmax mean: entry
  `(n, 1024 h + r, e)` of `attn` (`block_entry`). So each point writes back its block of `attn` (`flushed_eq`), the
  sixteen blocks cover the output, and the array ends holding `attn` of the arguments (`final`, `run`).
-/
import proofs.«155674_j33801392620168_2_alg».proof.Proof.Gen.KernelIdeal.Value
import proofs.«155674_j33801392620168_2_alg».proof.Proof.FlashEntry
import proofs.«155674_j33801392620168_2_alg».proof.Proof.Blocks
import proofs.«155674_j33801392620168_2_alg».proof.Proof.AttnSpec
import proofs.«155674_j33801392620168_2_alg».proof.Proof.LibRealOps

set_option maxRecDepth 16384

noncomputable section

namespace Cert.Attn.Kernel

open Idealize.ShloMosaic Idealize.ShloMosaic.TcCoe Idealize.ShloMosaic.ValueIdx Idealize.SL.Sem Cert.KernelIdeal Cert.KernelIdeal.Gen
open Idealize.ShloMosaic.Pipeline (Dat)
open Cert.Attn Cert.Attn.Flash Cert.Attn.Blocks

/-- A score of real rows is a real. -/
theorem score_real (Q K : A3.Idx → EReal) (hQ : ∀ i, ∃ r : ℝ, Q i = (r : EReal)) (hK : ∀ i, ∃ r : ℝ, K i = (r : EReal))
    (n : Fin 8) (q k : Fin 2048) : ∃ r : ℝ, score Q K n q k = (r : EReal) := by
  choose a ha using hQ
  choose b hb using hK
  refine ⟨∑ d : Fin 512, a (ix3 n q d) * b (ix3 n k d), ?_⟩
  unfold score
  rw [← ProofLib.RealOps.dot_coe]
  exact Finset.sum_congr rfl fun d _ => by rw [ha, hb]

variable (m : (ℓ : Loc nD τ sig) → Buf (Elt Ideal) ℓ) (ρ : Dev nD → PrngReg)

/-- The three arguments' entries are reals on core `c`. -/
def RealArgs (c : Dev nD) : Prop :=
  (∀ i, ∃ r : ℝ, (V m c main_arg0 i : EReal) = (r : EReal)) ∧ (∀ i, ∃ r : ℝ, (V m c main_arg1 i : EReal) = (r : EReal))
    ∧ (∀ i, ∃ r : ℝ, (V m c main_arg2 i : EReal) = (r : EReal))

/-- The body's block at a grid point, entry by entry, is the attention output at the entry's place in the array. -/
theorem block_entry (c : Dev nD) (hr : RealArgs m c) (t : Fin cfg0.N) (r : Fin 1024) (e : Fin 512) :
    result (stateAfter (iblk m c 0 t) (iblk m c 1 t) (iblk m c 2 t) k0_t1_loop.trips) (ix3 (0 : Fin 1) r e)
      = attn (V m c main_arg0) (V m c main_arg1) (V m c main_arg2) (((cfg0.win 3).blk t).view.emb (ix3 (0 : Fin 1) r e)) := by
  obtain ⟨e0, e1, e2, e3, e4, e5, e6, e7, e8, e9, e10, e11⟩ := idx_facts t
  obtain ⟨n, hn⟩ : ∃ n : Fin 8, win0_3.index t (0 : Fin 3) = n.val := ⟨⟨win0_3.index t (0 : Fin 3), by omega⟩, rfl⟩
  obtain ⟨h, hh⟩ : ∃ h : Fin 2, win0_3.index t (1 : Fin 3) = h.val := ⟨⟨win0_3.index t (1 : Fin 3), by omega⟩, rfl⟩
  rw [out_emb t n h hn hh r e, attn_apply, body_entry]
  unfold attnAt
  have hs : rowScores (iblk m c 0 t) (iblk m c 1 t) r
      = fun k => score (V m c main_arg0) (V m c main_arg1) n (⟨1024 * h.val + r.val, by omega⟩ : Fin 2048) k := by
    funext k
    unfold rowScores score
    refine Finset.sum_congr rfl fun d _ => ?_
    rw [q_block m c t n h hn hh r d, k_block m c t n hn k d]
  have hv : colValues (iblk m c 2 t) e = fun k => V m c main_arg2 (ix3 n k e) := by
    funext k
    exact v_block m c t n hn k e
  rw [hs, hv]
  exact Row.online_eq_softmax _ _ (fun k => score_real _ _ hr.1 hr.2.1 n _ k) (fun k => hr.2.2 _)

/-- What a grid point writes back is its block of the attention output of the arguments. -/
theorem flushed_eq (c : Dev nD) (hr : RealArgs m c) (t : Fin cfg0.N) :
    (dats m 0 c).flushed 3 t
      = ((cfg0.win 3).blk t).view.read (Elt Ideal) (attn (V m c main_arg0) (V m c main_arg1) (V m c main_arg2)) := by
  rw [Cert.KernelIdeal.Value.flushed3_A, body_block]
  funext y
  revert y
  show ∀ y : S1x1024x512.Idx, result (stateAfter (iblk m c 0 t) (iblk m c 1 t) (iblk m c 2 t) k0_t1_loop.trips) y
    = attn (V m c main_arg0) (V m c main_arg1) (V m c main_arg2) (((cfg0.win 3).blk t).view.emb y)
  intro y
  have h0 : @Eq (Fin 1) (y 0) 0 := Subsingleton.elim _ _
  have hy : y = ix3 (0 : Fin 1) (y 1) (y 2) :=
    (eq_ix3 y).trans (congrArg (fun z : Fin 1 => ix3 z (y 1) (y 2)) h0)
  rw [hy]
  exact block_entry m c hr t (y 1) (y 2)

/-- After the run the result array is the attention output of the arguments. -/
theorem final (c : Dev nD) (hr : RealArgs m c) :
    (dats m 0 c).arrAt 3 cfg0.N = attn (V m c main_arg0) (V m c main_arg1) (V m c main_arg2) :=
  (dats m 0 c).arrAt_eq_of_cover 3 _ (fun t _ => flushed_eq m c hr t) out_cover

/-- The kernel's run: the result array ends at the attention output of the arguments, the arguments unchanged. -/
theorem run (hr : ∀ c, RealArgs m c) :
    θ_run defs (onTc (τ := τ) (main (F := Ideal))) ⟨m, fun _ => 0, ρ⟩ fun r => ∀ c : Dev nD,
      r.2.mem ((c : Thread nD τ).loc main_v0)
          = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hr c)), (h c).2⟩)
    (Cert.KernelIdeal.Value.run_blocks m ρ)

end Cert.Attn.Kernel

end
-- ==== Proof.RefAttn.lean ====
/-
  The reference program, read as the specification.

  The reference computes, for every batch `n`, the 2048 × 2048 matrix of scores of the query rows against the key rows,
  takes the softmax of each row (the largest entry of the row is subtracted before exponentiating, and the
  exponentials are divided by their sum), and multiplies the result by the values. Read one entry at a time this is
  the softmax-weighted mean of `Cert.Attn.attn`: the stages below follow the program's operations in order, each
  stated at a coordinate triple or pair.
-/
import proofs.«155674_j33801392620168_2_alg».proof.Proof.Gen.ReferenceIdeal.Read
import proofs.«155674_j33801392620168_2_alg».proof.Proof.AttnSpec
import proofs.«155674_j33801392620168_2_alg».proof.Proof.LibLastFold

noncomputable section

namespace Cert.Attn.Ref

open Cert.ReferenceIdeal Cert.ReferenceIdeal.Gen Cert.ReferenceIdeal.Read Idealize.ShloMosaic Idealize.ShloMosaic.ValueIdx

/-- The arrays the reference takes and returns: 8 × 2048 × 512 extended reals. -/
abbrev Arr : Type := (⟨S8x2048x512, .f32⟩ : BufTy).Contents (Elt Ideal)

/-- The bit pattern of `-∞` is the bottom of the extended reals. -/
theorem negInf : Ideal.ofBits .f32 0xFF800000#32 = (⊥ : EReal) := by simp [Ideal.ofBits, Ideal.ieee]

/-! ### The composed index functions at coordinates -/

theorem lidx0 (n : Fin 8) (q k : Fin 2048) (d : Fin 512) : lidx_main_v0 (ix3 n q k) d = ix3 n q d :=
  funext fun a => Fin.ext (by match a with | ⟨0, _⟩ => rfl | ⟨1, _⟩ => rfl | ⟨2, _⟩ => rfl)

theorem ridx0 (n : Fin 8) (q k : Fin 2048) (d : Fin 512) : ridx_main_v0 (ix3 n q k) d = ix3 n k d :=
  funext fun a => Fin.ext (by match a with | ⟨0, _⟩ => rfl | ⟨1, _⟩ => rfl | ⟨2, _⟩ => rfl)

theorem idx5 (n : Fin 8) (q k : Fin 2048) : idx_main_v5 (ix3 n q k) = ix3 n q (0 : Fin 1) :=
  funext fun a => Fin.ext (by match a with | ⟨0, _⟩ => rfl | ⟨1, _⟩ => rfl | ⟨2, _⟩ => rfl)

theorem idx4 (n : Fin 8) (q : Fin 2048) (z : Fin 1) : idx_main_v4 (ix3 n q z) = ix2 n q :=
  funext fun a => Fin.ext (by match a with | ⟨0, _⟩ => rfl | ⟨1, _⟩ => rfl)

theorem idx8 (n : Fin 8) (q k : Fin 2048) : idx_main_v8 (ix2 n q) k = ix3 n q k :=
  funext fun a => Fin.ext (by match a with | ⟨0, _⟩ => rfl | ⟨1, _⟩ => rfl | ⟨2, _⟩ => rfl)

theorem idx10 (n : Fin 8) (q k : Fin 2048) : idx_main_v10 (ix3 n q k) = ix3 n q (0 : Fin 1) :=
  funext fun a => Fin.ext (by match a with | ⟨0, _⟩ => rfl | ⟨1, _⟩ => rfl | ⟨2, _⟩ => rfl)

theorem idx9 (n : Fin 8) (q : Fin 2048) (z : Fin 1) : idx_main_v9 (ix3 n q z) = ix2 n q :=
  funext fun a => Fin.ext (by match a with | ⟨0, _⟩ => rfl | ⟨1, _⟩ => rfl)

theorem lidx12 (n : Fin 8) (q : Fin 2048) (e : Fin 512) (k : Fin 2048) : lidx_main_v12 (ix3 n q e) k = ix3 n q k :=
  funext fun a => Fin.ext (by match a with | ⟨0, _⟩ => rfl | ⟨1, _⟩ => rfl | ⟨2, _⟩ => rfl)

theorem ridx12 (n : Fin 8) (q : Fin 2048) (e : Fin 512) (k : Fin 2048) : ridx_main_v12 (ix3 n q e) k = ix3 n k e :=
  funext fun a => Fin.ext (by match a with | ⟨0, _⟩ => rfl | ⟨1, _⟩ => rfl | ⟨2, _⟩ => rfl)

/-! ### The stages, in program order -/

/-- The largest score of row `(n, q)`: the fold of `max` from `-∞` over the keys. -/
def rowMax (Q K : Arr) (n : Fin 8) (q : Fin 2048) : EReal :=
  Finset.univ.fold max ⊥ fun k : Fin 2048 => score Q K n q k

/-- The first contraction is the matrix of scores. -/
theorem v0_at (Q K : Arr) (n : Fin 8) (q k : Fin 2048) :
    val_main_v0 (F := Ideal) Q K (ix3 n q k) = score Q K n q k := by
  rw [val_main_v0_apply]
  simp only [lidx0, ridx0]
  rfl

/-- The reduction by maximum over the keys, from `-∞`, is the largest score of the row. -/
theorem v1_at (Q K : Arr) (n : Fin 8) (q : Fin 2048) :
    val_main_v1 (F := Ideal) Q K (ix2 n q) = rowMax Q K n q := by
  haveI : Std.Commutative (FloatOps.maximumf : Ideal .f32 → Ideal .f32 → Ideal .f32) := ⟨fun a b => max_comm a b⟩
  haveI : Std.Associative (FloatOps.maximumf : Ideal .f32 → Ideal .f32 → Ideal .f32) := ⟨fun a b c => max_assoc a b c⟩
  unfold val_main_v1
  rw [Cert.Lib.LastFold.hostFoldLast_apply (FloatOps.maximumf : Ideal .f32 → Ideal .f32 → Ideal .f32) _ _
    reducesTo_S8x2048x2048_S8x2048_d2 (by decide) h_S_ n q]
  rw [val_main_cst_apply, Ideal.ofBits_def, negInf]
  simp only [v0_at]
  rfl

/-- Taking the maximum with `-∞` once more changes nothing. -/
theorem v3_at (Q K : Arr) (n : Fin 8) (q : Fin 2048) :
    val_main_v3 (F := Ideal) Q K (ix2 n q) = rowMax Q K n q := by
  rw [val_main_v3_apply, val_main_v2_apply, val_main_cst_0_apply, v1_at, Ideal.ofBits_def, negInf, Ideal.maximumf_def]
  exact max_bot_left _

/-- The row's largest score, spread over the keys. -/
theorem v5_at (Q K : Arr) (n : Fin 8) (q k : Fin 2048) :
    val_main_v5 (F := Ideal) Q K (ix3 n q k) = rowMax Q K n q := by
  rw [val_main_v5_apply, idx5, val_main_v4_apply, idx4, v3_at]

/-- The exponential of the score less the row's largest. -/
theorem v7_at (Q K : Arr) (n : Fin 8) (q k : Fin 2048) :
    val_main_v7 (F := Ideal) Q K (ix3 n q k) = Ideal.exp (score Q K n q k - rowMax Q K n q) := by
  rw [val_main_v7_apply, val_main_v6_apply, v0_at, v5_at, Ideal.subf_def, Ideal.hostUnary_exp_def]

/-- The sum of the exponentials over the keys, from zero. -/
theorem v8_at (Q K : Arr) (n : Fin 8) (q : Fin 2048) :
    val_main_v8 (F := Ideal) Q K (ix2 n q) = ∑ k : Fin 2048, Ideal.exp (score Q K n q k - rowMax Q K n q) := by
  rw [val_main_v8_apply, val_main_cst_1_apply, Ideal.ofBits_def, Ideal.ofBits_zero_f32, zero_add]
  simp only [idx8, v7_at]

/-- That sum, spread over the keys. -/
theorem v10_at (Q K : Arr) (n : Fin 8) (q k : Fin 2048) :
    val_main_v10 (F := Ideal) Q K (ix3 n q k) = ∑ k' : Fin 2048, Ideal.exp (score Q K n q k' - rowMax Q K n q) := by
  rw [val_main_v10_apply, idx10, val_main_v9_apply, idx9, v8_at]

/-- The softmax weight of key `k` in row `(n, q)`. -/
theorem v11_at (Q K : Arr) (n : Fin 8) (q k : Fin 2048) :
    val_main_v11 (F := Ideal) Q K (ix3 n q k)
      = Ideal.div (Ideal.exp (score Q K n q k - rowMax Q K n q))
          (∑ k' : Fin 2048, Ideal.exp (score Q K n q k' - rowMax Q K n q)) := by
  rw [val_main_v11_apply, v7_at, v10_at, Ideal.hostDivf_def]

/-- The reference program computes dense softmax attention. -/
theorem ref_eq (Q K V : Arr) :
    Cert.ReferenceIdeal.Read.val_main_v12 (F := Ideal) Q K V = Cert.Attn.attn Q K V := by
  funext i
  obtain ⟨n, q, e, rfl⟩ : ∃ (n : Fin 8) (q : Fin 2048) (e : Fin 512), i = ix3 n q e := ⟨i 0, i 1, i 2, eq_ix3 i⟩
  rw [val_main_v12_apply]
  simp only [lidx12, ridx12, v11_at]
  rfl

end Cert.Attn.Ref

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.FiniteInputs.lean ====
/-
  The precondition read back: every entry of the three arguments is a real number.

  `finite_inputs` is the conjunction, over the three arrays, of "every entry's absolute value is below `+∞`". At the
  ideal instance an entry is an extended real, and one whose absolute value is below `+∞` is neither infinity.
-/
import proofs.«155674_j33801392620168_2_alg».proof.Pre_finite_inputs
import proofs.«155674_j33801392620168_2_alg».proof.Proof.Gen.Pre_finite_inputs
import proofs.«155674_j33801392620168_2_alg».proof.Proof.LibFiniteEntry
import Idealize.ShloMosaic.Lib.ValueIdx
import Idealize.ShloMosaic.Lib.Affine

noncomputable section

namespace Cert.Attn.Finite

open Idealize.ShloMosaic Cert.Pre_finite_inputs

variable [Cert.Pre_finite_inputs.Facts]

/-- The rank-0 shape has one index. -/
instance : Subsingleton S_.Idx := ⟨fun a b => funext fun d => d.elim0⟩

/-- Under the precondition every entry of each of the three arrays is a real. -/
theorem all_real (Q K V : FVec Ideal S8x2048x512 .f32)
    (h : Cert.Pre_finite_inputs.fn (F := Ideal) Q K V = fun _ => 1#1) :
    (∀ i, ∃ r : ℝ, (Q i : EReal) = (r : EReal)) ∧ (∀ i, ∃ r : ℝ, (K i : EReal) = (r : EReal))
      ∧ (∀ i, ∃ r : ℝ, (V i : EReal) = (r : EReal)) := by
  have h0 : Cert.Pre_finite_inputs.fn (F := Ideal) Q K V ValueIdx.ix0 = 1#1 := congrFun h _
  dsimp only [fn] at h0
  unfold andi at h0
  obtain ⟨h01, h2⟩ := IntOp.andi_eq_one.mp h0
  obtain ⟨hq, hk⟩ := IntOp.andi_eq_one.mp h01
  exact ⟨fun i => ProofLib.Finite.all_real_of_all_abs_lt_inf Q _ (fun _ => rfl) _ _ _ _ hq i,
    fun i => ProofLib.Finite.all_real_of_all_abs_lt_inf K _ (fun _ => rfl) _ _ _ _ hk i,
    fun i => ProofLib.Finite.all_real_of_all_abs_lt_inf V _ (fun _ => rfl) _ _ _ _ h2 i⟩

end Cert.Attn.Finite

end
-- ==== Proof.lean ====
/-
  Flash attention against softmax attention, on the extended reals.

  The reference computes, for queries, keys and values of shape 8 × 2048 × 512, the scores `s = q · kᵀ` of every query row
  against every key row of its batch, the softmax of each row of scores, and the product of those weights with the values:
  entry `(n, q, e)` is `∑ k, exp (s k - M) / (∑ k', exp (s k' - M)) * v (n, k, e)`, `M` the row's largest score
  (`Cert.Attn.attn`; `Cert.Attn.Ref.ref_eq` reads the reference's sixteen operations as that formula).

  The kernel never forms the 2048 × 2048 matrix. A grid point holds 1024 query rows and all keys and values of one batch,
  visits the keys in four chunks of 512, and carries per row a running maximum `m`, a running normaliser `l` and a running
  weighted sum `acc` taken relative to `m`: on each chunk `m` rises to `m'`, `l` and `acc` are rescaled by `exp (m - m')`
  and the chunk's terms `exp (s k - m')`, `exp (s k - m') * v k` are added; it finally writes `acc / l`
  (`Cert.Attn.Flash`: the body's run read as that recurrence, then entry by entry).

  The two agree where the arguments' entries are reals, which is the precondition (`Cert.Attn.Finite.all_real`): then
  the scores are reals, `exp (m - m') * exp (s - m) = exp (s - m')` keeps `l` and `acc` the sums of `exp (s k - m)` and
  `exp (s k - m) * v k` over the keys seen (the first chunk, from `m = -∞`, is the same law with both sides zero), and a
  ratio of such sums does not depend on the real it is shifted by (`Cert.Attn.Row.online_eq_softmax`). At the infinities
  the rescaling does not distribute over the sums, so finiteness is used. The sixteen blocks cover the output
  (`Cert.Attn.Kernel.final`). Both frames of the kernel are the generated ones; the reference's frame is its generated run.
-/
import proofs.«155674_j33801392620168_2_alg».proof.Defs
import proofs.«155674_j33801392620168_2_alg».proof.Proof.Gen.Kernel
import proofs.«155674_j33801392620168_2_alg».proof.Proof.Gen.Kernel.Skeleton
import proofs.«155674_j33801392620168_2_alg».proof.Proof.Gen.Kernel.Loops
import proofs.«155674_j33801392620168_2_alg».proof.Proof.Gen.Kernel.Launch
import proofs.«155674_j33801392620168_2_alg».proof.Proof.Gen.Kernel.Points
import proofs.«155674_j33801392620168_2_alg».proof.Proof.Gen.Kernel.Frame
import proofs.«155674_j33801392620168_2_alg».proof.Proof.Gen.KernelIdeal
import proofs.«155674_j33801392620168_2_alg».proof.Proof.Gen.KernelIdeal.Skeleton
import proofs.«155674_j33801392620168_2_alg».proof.Proof.Gen.KernelIdeal.Loops
import proofs.«155674_j33801392620168_2_alg».proof.Proof.Gen.KernelIdeal.Launch
import proofs.«155674_j33801392620168_2_alg».proof.Proof.Gen.KernelIdeal.Points
import proofs.«155674_j33801392620168_2_alg».proof.Proof.Gen.KernelIdeal.Frame
import proofs.«155674_j33801392620168_2_alg».proof.Proof.Gen.ReferenceIdeal
import proofs.«155674_j33801392620168_2_alg».proof.Proof.Gen.Pre_finite_inputs
import proofs.«155674_j33801392620168_2_alg».proof.Proof.Gen.KernelIdeal.Value
import proofs.«155674_j33801392620168_2_alg».proof.Proof.Gen.ReferenceIdeal.Run
import proofs.«155674_j33801392620168_2_alg».proof.Proof.Gen.ReferenceIdeal.Read
import proofs.«155674_j33801392620168_2_alg».proof.Proof.AttnValue
import proofs.«155674_j33801392620168_2_alg».proof.Proof.RefAttn
import proofs.«155674_j33801392620168_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, whose entries are reals, both programs end with the attention output of
    the arguments in their result arrays. -/
theorem algebraic : Cert.algebraic_KernelIdeal_ReferenceIdeal := by
  intro m ρ m' ρ' hpre hagree
  have hr : ∀ c, Cert.Attn.Kernel.RealArgs m c := fun c => Cert.Attn.Finite.all_real _ _ _ (hpre c)
  refine ⟨_, Cert.Attn.Kernel.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.Attn.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
